-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel

variable [Facts]

def fn {F : FTy → Type} [FloatOps F] (main_arg0 : FVec F S1024x256 .f32) (main_arg1 : FVec F S1024x256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  main_v8
-- ==== Kernel.lean ====
abbrev S1024x256 : Shape := ⟨2, ![1024, 256]⟩
abbrev S36 : Shape := ⟨1, ![36]⟩
abbrev S1024x1024 : Shape := ⟨2, ![1024, 1024]⟩
abbrev S128x256 : Shape := ⟨2, ![128, 256]⟩
abbrev S1 : Shape := ⟨1, ![1]⟩
abbrev S128x128 : Shape := ⟨2, ![128, 128]⟩
abbrev S128 : Shape := ⟨1, ![128]⟩
abbrev S128x1 : Shape := ⟨2, ![128, 1]⟩
abbrev S32x256 : Shape := ⟨2, ![32, 256]⟩
abbrev S32x128 : Shape := ⟨2, ![32, 128]⟩
abbrev S32x1x128 : Shape := ⟨3, ![32, 1, 128]⟩
abbrev S1x128x128 : Shape := ⟨3, ![1, 128, 128]⟩
abbrev S32x128x128 : Shape := ⟨3, ![32, 128, 128]⟩
abbrev S_ : Shape := ⟨0, ![]⟩

abbrev nBuf : Space → Nat
  | .hbm => 23
  | .vmem => 10
  | .smem => 2
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x1024, .f32⟩
  | .hbm, ⟨3, _⟩ => ⟨S1024x1024, .i32⟩
  | .hbm, ⟨4, _⟩ => ⟨S_, .i32⟩
  | .hbm, ⟨5, _⟩ => ⟨S1024x1024, .i32⟩
  | .hbm, ⟨6, _⟩ => ⟨S1024x1024, .i32⟩
  | .hbm, ⟨7, _⟩ => ⟨S1024x1024, .i32⟩
  | .hbm, ⟨8, _⟩ => ⟨S1024x1024, .i1⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .i32⟩
  | .hbm, ⟨13, _⟩ => ⟨S_, .i32⟩
  | .hbm, ⟨14, _⟩ => ⟨S1024x1024, .i32⟩
  | .hbm, ⟨15, _⟩ => ⟨S1024x1024, .i32⟩
  | .hbm, ⟨16, _⟩ => ⟨S1024x1024, .i32⟩
  | .hbm, ⟨17, _⟩ => ⟨S1024x1024, .i1⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x128, .f32⟩
  | .local _ .vmem, ⟨9, _⟩ => ⟨S128x128, .f32⟩
  | .local _ .smem, ⟨0, _⟩ => ⟨S36, .i32⟩
  | .local _ .smem, ⟨1, _⟩ => ⟨S36, .i32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_v1 : Ref sig .tc := ⟨.hbm, 11, rfl⟩
abbrev main_call1_v0 : Ref sig .tc := ⟨.hbm, 12, rfl⟩
abbrev main_call1_c : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_cst : Ref sig .tc := ⟨.hbm, 18, rfl⟩
abbrev main_call1_v5 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![36], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  ![v1.toNat, c0_i32.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S36) ![v0.toNat] S1.size (k0_off1_inb i)) numel1_S1
  let c0_i32 : BitVec 32 := 0#32
  let c0_i32_0 : BitVec 32 := 0#32
  ![v1.toNat, c0_i32.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S36) ![v0.toNat] S1.size (k0_off1_inb i)) numel1_S1
  let v2 : Index := Scalar.indexCast arg0
  let v3 : BitVec 32 := pf.at 1 (Rect.unit (s := S36) ![v2.toNat] S1.size (k0_off1_inb i)) numel1_S1
  let c0_i32 : BitVec 32 := 0#32
  ![v1.toNat, v3.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  numel1_S1 : S1.numel = 1
  inb_S128x256_S128x256_0_0 : ∀ a, (![0, 0] : Fin 2 → Nat) a + S128x256.size a ≤ S128x256.size a
  h_S128x256 : 0 < S128x256.numel
  reduces_S128x256_S128 : S128x256.Reduces [1] S128
  shapeCasts_S128_S128x1 : S128.ShapeCasts S128x1
  broadcasts_S128x1_S128x256 : S128x1.Broadcasts S128x256
  slices_S128x256_o0_0_S32x256 : S128x256.Slices ![0, 0] S32x256
  slices_S32x256_o0_0_S32x128 : S32x256.Slices ![0, 0] S32x128
  slices_S128x256_o0_0_S128x128 : S128x256.Slices ![0, 0] S128x128
  shapeCasts_S32x128_S32x1x128 : S32x128.ShapeCasts S32x1x128
  shapeCasts_S128x128_S1x128x128 : S128x128.ShapeCasts S1x128x128
  broadcasts_S32x1x128_S32x128x128 : S32x1x128.Broadcasts S32x128x128
  broadcasts_S1x128x128_S32x128x128 : S1x128x128.Broadcasts S32x128x128
  reduces_S32x128x128_S32x128 : S32x128x128.Reduces [2] S32x128
  slices_S32x256_o0_128_S32x128 : S32x256.Slices ![0, 128] S32x128
  slices_S128x256_o0_128_S128x128 : S128x256.Slices ![0, 128] S128x128
  inb_S128x128_S32x128_0_0 : ∀ a, (![0, 0] : Fin 2 → Nat) a + S32x128.size a ≤ S128x128.size a
  h_S32x128 : 0 < S32x128.numel
  slices_S128x256_o32_0_S32x256 : S128x256.Slices ![32, 0] S32x256
  inb_S128x128_S32x128_32_0 : ∀ a, (![32, 0] : Fin 2 → Nat) a + S32x128.size a ≤ S128x128.size a
  slices_S128x256_o64_0_S32x256 : S128x256.Slices ![64, 0] S32x256
  inb_S128x128_S32x128_64_0 : ∀ a, (![64, 0] : Fin 2 → Nat) a + S32x128.size a ≤ S128x128.size a
  slices_S128x256_o96_0_S32x256 : S128x256.Slices ![96, 0] S32x256
  inb_S128x128_S32x128_96_0 : ∀ a, (![96, 0] : Fin 2 → Nat) a + S32x128.size a ≤ S128x128.size a
  bcast_S_S1024x1024 : S_.BroadcastsInDim S1024x1024 (![] : Fin 0 → Fin S1024x1024.rank)
  transposes_S1024x1024_S1024x1024_1_0 : S1024x1024.Transposes [1, 0] S1024x1024
  hrank0 : 0 < grid0.rank
  k0_off1_inb : ∀ i : grid0.Coords, ∀ a, (k0_off1 i) a + S1.size a ≤ S36.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'

variable [Facts₀]

abbrev spec0_0 : Pipeline.WinSpec sig grid0.rank :=
  Pipeline.WinSpec.ofSpec (Memref.whole main_arg0) S128x256.size reads0_0 false false 2 stage0_0 sem0_0 nbuf0_0 hstage0_0

abbrev spec0_1 : Pipeline.WinSpec sig grid0.rank :=
  Pipeline.WinSpec.ofSpec (Memref.whole main_arg1) S128x256.size reads0_1 false false 2 stage0_1 sem0_1 nbuf0_1 hstage0_1

abbrev spec0_2 : Pipeline.WinSpec sig grid0.rank :=
  Pipeline.WinSpec.ofSpec (Memref.whole main_arg0) S128x256.size reads0_2 false false 2 stage0_2 sem0_2 nbuf0_2 hstage0_2

abbrev spec0_3 : Pipeline.WinSpec sig grid0.rank :=
  Pipeline.WinSpec.ofSpec (Memref.whole main_arg1) S128x256.size reads0_3 false false 2 stage0_3 sem0_3 nbuf0_3 hstage0_3

abbrev spec0_4 : Pipeline.WinSpec sig grid0.rank :=
  Pipeline.WinSpec.ofSpec (Memref.whole main_v0) S128x128.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | 4 => cc0_transform_4 k0_off1_inb numel1_S1 pf | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | 4 => hreads0_4 pf | ⟨_ + 5, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S128x256.size a ≤ S1024x256.size a), EltTy.bits .f32 = 32 ∨ (Rect.block (s := S1024x256) S128x256.size (cc0_transform_0 k0_off1_inb numel1_S1 pf i) h).WholeWords (EltTy.packing .f32)) ∧
  (∀ i : grid0.Coords, ∃ h : (∀ a, (cc0_transform_1 k0_off1_inb numel1_S1 pf i a + 1) * S128x256.size a ≤ S1024x256.size a), EltTy.bits .f32 = 32 ∨ (Rect.block (s := S1024x256) S128x256.size (cc0_transform_1 k0_off1_inb numel1_S1 pf i) h).WholeWords (EltTy.packing .f32)) ∧
  (∀ i : grid0.Coords, ∃ h : (∀ a, (cc0_transform_2 k0_off1_inb numel1_S1 pf i a + 1) * S128x256.size a ≤ S1024x256.size a), EltTy.bits .f32 = 32 ∨ (Rect.block (s := S1024x256) S128x256.size (cc0_transform_2 k0_off1_inb numel1_S1 pf i) h).WholeWords (EltTy.packing .f32)) ∧
  (∀ i : grid0.Coords, ∃ h : (∀ a, (cc0_transform_3 k0_off1_inb numel1_S1 pf i a + 1) * S128x256.size a ≤ S1024x256.size a), EltTy.bits .f32 = 32 ∨ (Rect.block (s := S1024x256) S128x256.size (cc0_transform_3 k0_off1_inb numel1_S1 pf i) h).WholeWords (EltTy.packing .f32)) ∧
  (∀ i : grid0.Coords, ∃ h : (∀ a, (cc0_transform_4 k0_off1_inb numel1_S1 pf i a + 1) * S128x128.size a ≤ S1024x1024.size a), EltTy.bits .f32 = 32 ∨ (Rect.block (s := S1024x1024) S128x128.size (cc0_transform_4 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2.1 i).elim fun h _ => h a | 4 => fun i a => (hok.2.2.2.2 i).elim fun h _ => h a | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2.1 i).elim fun _ h => h | 4 => fun i => (hok.2.2.2.2 i).elim fun _ h => h | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S1024x256 : Shape := ⟨2, ![1024, 256]⟩
abbrev S_ : Shape := ⟨0, ![]⟩
abbrev S1024 : Shape := ⟨1, ![1024]⟩
abbrev S1024x1 : Shape := ⟨2, ![1024, 1]⟩
abbrev S1024x1x256 : Shape := ⟨3, ![1024, 1, 256]⟩
abbrev S1x1024x256 : Shape := ⟨3, ![1, 1024, 256]⟩
abbrev S1024x1024x256 : Shape := ⟨3, ![1024, 1024, 256]⟩
abbrev S1024x1024 : Shape := ⟨2, ![1024, 1024]⟩

abbrev nBuf : Space → Nat
  | .hbm => 33
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x1x256, .f32⟩
  | .hbm, ⟨14, _⟩ => ⟨S1x1024x256, .f32⟩
  | .hbm, ⟨15, _⟩ => ⟨S1024x1024x256, .f32⟩
  | .hbm, ⟨16, _⟩ => ⟨S1024x1024x256, .f32⟩
  | .hbm, ⟨17, _⟩ => ⟨S1024x1024x256, .f32⟩
  | .hbm, ⟨18, _⟩ => ⟨S1024x1x256, .f32⟩
  | .hbm, ⟨19, _⟩ => ⟨S1x1024x256, .f32⟩
  | .hbm, ⟨20, _⟩ => ⟨S1024x1024x256, .f32⟩
  | .hbm, ⟨21, _⟩ => ⟨S1024x1024x256, .f32⟩
  | .hbm, ⟨22, _⟩ => ⟨S1024x1024x256, .f32⟩
  | .hbm, ⟨23, _⟩ => ⟨S1024x1024x256, .f32⟩
  | .hbm, ⟨24, _⟩ => ⟨S_, .f32⟩
  | .hbm, ⟨25, _⟩ => ⟨S1024x1024x256, .f32⟩
  | .hbm, ⟨26, _⟩ => ⟨S1024x1024x256, .f32⟩
  | .hbm, ⟨27, _⟩ => ⟨S1024x1024x256, .f32⟩
  | .hbm, ⟨28, _⟩ => ⟨S1024x1024x256, .f32⟩
  | .hbm, ⟨29, _⟩ => ⟨S1024x1024x256, .f32⟩
  | .hbm, ⟨30, _⟩ => ⟨S_, .f32⟩
  | .hbm, ⟨31, _⟩ => ⟨S1024x1024, .f32⟩
  | .hbm, ⟨32, _⟩ => ⟨S1024x1024, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  reducesTo_S1024x256_S1024_d1 : S1024x256.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x256_0_1 : S1024x1.BroadcastsInDim S1024x256 (![0, 1] : Fin 2 → Fin S1024x256.rank)
  bcast_S1024x256_S1024x1x256_0_2 : S1024x256.BroadcastsInDim S1024x1x256 (![0, 2] : Fin 2 → Fin S1024x1x256.rank)
  bcast_S1024x256_S1x1024x256_1_2 : S1024x256.BroadcastsInDim S1x1024x256 (![1, 2] : Fin 2 → Fin S1x1024x256.rank)
  bcast_S1024x1x256_S1024x1024x256_0_1_2 : S1024x1x256.BroadcastsInDim S1024x1024x256 (![0, 1, 2] : Fin 3 → Fin S1024x1024x256.rank)
  bcast_S1x1024x256_S1024x1024x256_0_1_2 : S1x1024x256.BroadcastsInDim S1024x1024x256 (![0, 1, 2] : Fin 3 → Fin S1024x1024x256.rank)
  bcast_S_S1024x1024x256 : S_.BroadcastsInDim S1024x1024x256 (![] : Fin 0 → Fin S1024x1024x256.rank)
  reducesTo_S1024x1024x256_S1024x1024_d2 : S1024x1024x256.ReducesTo [2] S1024x1024

variable [Facts₀]

class Facts : Prop extends Facts₀ where

variable [Facts]
-- ==== Proof.KEntry.lean ====
/-
  The kernel's launch, first part: the host lines before the region write the two constant tile-pair tables; the
  region is entered with every other buffer as launched. The tables' contents are the literal lists of the 36
  upper-triangular tile pairs (bi, bj), bi ≤ bj < 8, so every window's block lies inside its array.
-/
import proofs.«143452_j12326556139626_2_alg».proof.Proof.Gen.Kernel.Launch
import proofs.«143452_j12326556139626_2_alg».proof.Proof.Gen.Kernel.Skeleton
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: the launch contents after the two table constants. -/
abbrev V (c : Dev nD) (b : Ref sig .tc) : Buf (Elt F) ((c : Thread nD τ).loc b) :=
  StableHlo.after ([hostOps0 (F := F)] : List (List (HloOp τ sig (Elt F)))).flatten (fun b => m (c, b)) b

/-- The host lines after the region: the two triangular masks, the transpose and the sum. -/
abbrev tailOps : List (List (HloOp τ sig (Elt F))) := [hostOps1, hostOps1_1, hostOps1_2]

theorem hmain (𝒱₀ : Variants) : Pipeline.HMainPK (Ix := Unit) (Name := ℕ) (U := UR sig nD τ) (Lvl := ℕ) pcfgs 0 defs₀ 𝒱₀ m (main (F := F)) (V m)
    (fun _ => Pipeline.chain ((tailOps (F := F)).map StableHlo.seq)) :=
  Pipeline.hmainP_around pcfgs 0 defs₀ 𝒱₀ m main [hostOps0] tailOps hostOps0_sub ⟨rfl, rfl⟩ fun c => (main_chain c).trans rfl

end Cert.Kernel.Hand

end
-- ==== Proof.KTables.lean ====
/-
  The two prefetched tables hold the 36 upper-triangular tile pairs (bi, bj), bi ≤ bj < 8, in row-major order of the
  triangle. Every entry is below 8, so each 128-row block a window's index map names lies inside its array; this is
  the pipeline's side condition at these contents.
-/
import proofs.«143452_j12326556139626_2_alg».proof.Proof.KEntry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The tables' contents: the row tile and the column tile of each of the 36 pairs. -/
def tbl : pre0.Contents (Elt F) := fun k => match k with
  | ⟨0, _⟩ => (fun i => lit0 (S36.rowMajor i) : S36.Idx → BitVec 32)
  | ⟨1, _⟩ => (fun i => lit1 (S36.rowMajor i) : S36.Idx → BitVec 32)

theorem lit0_lt : ∀ j : Fin 36, (lit0 j).toNat < 8 := by decide
theorem lit1_lt : ∀ j : Fin 36, (lit1 j).toNat < 8 := by decide

/-- The region finds the tables at those contents. -/
theorem V_pre (c : Dev nD) (k : Fin 2) : V m c (pre0.ref k) = tbl (F := F) k := by
  match k with
  | ⟨0, _⟩ =>
    show StableHlo.after (hostOps0 (F := F)) (fun b => m (c, b)) (Proc.devRef .tc main_c) = _
    after_results; rfl
  | ⟨1, _⟩ =>
    show StableHlo.after (hostOps0 (F := F)) (fun b => m (c, b)) (Proc.devRef .tc main_c_0) = _
    after_results; rfl

/-- Every block the index maps name at these contents lies inside its array. -/
theorem ok : ok0 (F := F) (tbl (F := F)) := by
  refine ⟨fun i => ?_, fun i => ?_, fun i => ?_, fun i => ?_, fun i => ?_⟩
  · obtain ⟨j, e⟩ : ∃ j : Fin 36, cc0_transform_0 Facts₀.k0_off1_inb Facts₀.numel1_S1 (tbl (F := F)) i = ![(lit0 j).toNat, 0] := ⟨_, rfl⟩
    refine ⟨fun a => ?_, Or.inl rfl⟩
    rw [e]; have := lit0_lt j
    fin_cases a <;> simp [S128x256, S1024x256] <;> omega
  · obtain ⟨j, e⟩ : ∃ j : Fin 36, cc0_transform_1 Facts₀.k0_off1_inb Facts₀.numel1_S1 (tbl (F := F)) i = ![(lit0 j).toNat, 0] := ⟨_, rfl⟩
    refine ⟨fun a => ?_, Or.inl rfl⟩
    rw [e]; have := lit0_lt j
    fin_cases a <;> simp [S128x256, S1024x256] <;> omega
  · obtain ⟨j, e⟩ : ∃ j : Fin 36, cc0_transform_2 Facts₀.k0_off1_inb Facts₀.numel1_S1 (tbl (F := F)) i = ![(lit1 j).toNat, 0] := ⟨_, rfl⟩
    refine ⟨fun a => ?_, Or.inl rfl⟩
    rw [e]; have := lit1_lt j
    fin_cases a <;> simp [S128x256, S1024x256] <;> omega
  · obtain ⟨j, e⟩ : ∃ j : Fin 36, cc0_transform_3 Facts₀.k0_off1_inb Facts₀.numel1_S1 (tbl (F := F)) i = ![(lit1 j).toNat, 0] := ⟨_, rfl⟩
    refine ⟨fun a => ?_, Or.inl rfl⟩
    rw [e]; have := lit1_lt j
    fin_cases a <;> simp [S128x256, S1024x256] <;> omega
  · obtain ⟨j, e⟩ : ∃ j : Fin 36, cc0_transform_4 Facts₀.k0_off1_inb Facts₀.numel1_S1 (tbl (F := F)) i = ![(lit0 j).toNat, (lit1 j).toNat] := ⟨_, rfl⟩
    refine ⟨fun a => ?_, Or.inl rfl⟩
    rw [e]; have := lit0_lt j; have := lit1_lt j
    fin_cases a <;> simp [S128x128, S1024x1024] <;> omega

/-- The tables' contents as admissible contents, and the pipeline at them. -/
abbrev adm : (pcfg0 (F := F)).Adm := ⟨tbl, ok⟩
abbrev cfgM : Pipeline.Cfg sig Λ₀ := cfg0 (adm (F := F))

end Cert.Kernel.Hand

end
-- ==== Proof.KBody.lean ====
/-
  The kernel body at one grid point. It loads the four input blocks whole, and stores the 128×128 output block in four
  row bands of 32 rows, each band the (negated) sum over both halves of the feature axis of the pairwise terms of 32
  rows of the first pair of blocks against all 128 rows of the second pair. What the body leaves in the output block
  is therefore the four bands laid over one another, a function of the four input blocks alone.
-/
import proofs.«143452_j12326556139626_2_alg».proof.Proof.KTables

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole input block, and the four row bands of the output block. -/
abbrev rin : Rect S128x256 := Rect.unit (s := S128x256) ![0, 0] S128x256.size inb_S128x256_S128x256_0_0
abbrev band0 : Rect S128x128 := Rect.unit (s := S128x128) ![0, 0] S32x128.size inb_S128x128_S32x128_0_0
abbrev band1 : Rect S128x128 := Rect.unit (s := S128x128) ![32, 0] S32x128.size inb_S128x128_S32x128_32_0
abbrev band2 : Rect S128x128 := Rect.unit (s := S128x128) ![64, 0] S32x128.size inb_S128x128_S32x128_64_0
abbrev band3 : Rect S128x128 := Rect.unit (s := S128x128) ![96, 0] S32x128.size inb_S128x128_S32x128_96_0

/-- The normalised means and the variances of the two pairs of blocks. -/
abbrev muI (x0 : Vec F S128x256 .f32) : FVec F S128x256 .f32 := k0_pay2 (View.ld x0 rin)
abbrev sgI (x1 : Vec F S128x256 .f32) : FVec F S128x256 .f32 := k0_pay3 (View.ld x1 rin)
abbrev muJ (x2 : Vec F S128x256 .f32) : FVec F S128x256 .f32 := k0_pay4 (View.ld x2 rin)
abbrev sgJ (x3 : Vec F S128x256 .f32) : FVec F S128x256 .f32 := k0_pay5 (View.ld x3 rin)

/-- The four bands the body stores, in the order it stores them. -/
def bandVal0 (x0 x1 x2 x3 : Vec F S128x256 .f32) : FVec F S32x128 .f32 :=
  k0_pay10 (muJ x2) (sgJ x3) (k0_pay6 (View.ld x0 rin)) (k0_pay7 (View.ld x1 rin)) (k0_pay8 (F := F))
    (k0_pay9 (View.ld x0 rin) (View.ld x1 rin) (View.ld x2 rin) (View.ld x3 rin))
def bandVal1 (x0 x1 x2 x3 : Vec F S128x256 .f32) : FVec F S32x128 .f32 :=
  k0_pay15 (muJ x2) (sgJ x3) (k0_pay11 (muI x0)) (k0_pay12 (sgI x1)) (k0_pay13 (F := F)) (k0_pay14 (muI x0) (sgI x1) (muJ x2) (sgJ x3))
def bandVal2 (x0 x1 x2 x3 : Vec F S128x256 .f32) : FVec F S32x128 .f32 :=
  k0_pay20 (muJ x2) (sgJ x3) (k0_pay16 (muI x0)) (k0_pay17 (sgI x1)) (k0_pay18 (F := F)) (k0_pay19 (muI x0) (sgI x1) (muJ x2) (sgJ x3))
def bandVal3 (x0 x1 x2 x3 : Vec F S128x256 .f32) : FVec F S32x128 .f32 :=
  k0_pay1 (muJ x2) (sgJ x3) (k0_pay21 (muI x0)) (k0_pay22 (sgI x1)) (k0_pay23 (muI x0) (sgI x1) (muJ x2) (sgJ x3))

/-- What the body leaves in the output block: its four stores as pieces, last first. -/
def outBlock (x0 x1 x2 x3 : Vec F S128x256 .f32) : Vec F S128x128 .f32 :=
  View.canon [⟨band3, bandVal3 x0 x1 x2 x3⟩, ⟨band2, bandVal2 x0 x1 x2 x3⟩, ⟨band1, bandVal1 x0 x1 x2 x3⟩, ⟨band0, bandVal0 x0 x1 x2 x3⟩]

/-- The four bands tile the block. -/
theorem bands_cover (p3 p2 p1 p0 : Vec F S32x128 .f32) (y : S128x128.Idx) :
    ∃ pc ∈ ([⟨band3, p3⟩, ⟨band2, p2⟩, ⟨band1, p1⟩, ⟨band0, p0⟩] : List (View.Piece (Elt F) S128x128 .f32)), y ∈ pc.1.set :=
  View.cover_of_tiled [⟨band3, p3⟩, ⟨band2, p2⟩, ⟨band1, p1⟩, ⟨band0, p0⟩] S32x128.size (by rfl) y

set_option maxHeartbeats 1000000 in
/-- The body on whole staging memrefs, the inputs' at read contents `x0 … x3` and the output's at anything, runs to the
    continuation holding the inputs' as they were and the output's at `outBlock` of them. -/
theorem sound_kernel (c : Dev nD) (E : Set ℕ) (i : grid0.Coords)
    (arg1 : Memref sig .tc .smem S36 .i32) (harg1 : arg1.IsWhole) (arg2 : Memref sig .tc .smem S36 .i32) (harg2 : arg2.IsWhole)
    (arg3 : Memref sig .tc .vmem S128x256 .f32) (harg3 : arg3.IsWhole) (arg4 : Memref sig .tc .vmem S128x256 .f32) (harg4 : arg4.IsWhole)
    (arg5 : Memref sig .tc .vmem S128x256 .f32) (harg5 : arg5.IsWhole) (arg6 : Memref sig .tc .vmem S128x256 .f32) (harg6 : arg6.IsWhole)
    (arg7 : Memref sig .tc .vmem S128x128 .f32) (harg7 : arg7.IsWhole)
    (x0 x1 x2 x3 : Vec F S128x256 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (outBlock x0 x1 x2 x3)) -∗ K ⟨⟩))
      ⊢ wp frame (wpE (defs₀ (F := F)) Variants.none c none) E
          (cc0__pairwise_kernel i arg1 harg1 arg2 harg2 arg3 harg3 arg4 harg4 arg5 harg5 arg6 harg6 arg7 harg7) K := by
  simp only [cc0__pairwise_kernel_eq_skeleton]; unfold cc0__pairwise_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (bands_cover _ _ _ _)

end Cert.Kernel.Hand

end
-- ==== Proof.KData.lean ====
/-
  The pipeline's proof data. At every grid point each input window's staging buffer holds that window's block of its
  argument array (rows 128·bi… of the means or of the log-variances, bi or bj the point's tile), and after the body the
  output window's buffer holds the body's four bands of those blocks. The two arrays that two windows read are each
  held at half shares by the two windows.
-/
import proofs.«143452_j12326556139626_2_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (c : Dev nD) (w : Fin (cfgM (F := F)).W) (t : Fin (cfgM (F := F)).N) :
    (((cfgM (F := F)).win w).xblock ((cfgM (F := F)).grid.coords t)).Idx → Elt F ((cfgM (F := F)).win w).elt :=
  (((cfgM (F := F)).win w).blk t).view.read (Elt F) (V m c (Pipeline.arrRef spec0 w))

/-- The proof data of the pipeline on core `c`. -/
def dats (_ : Fin 1) (c : Dev nD) : Dat τ (Elt F) Unit ℕ (UR sig nD τ) ℕ (cfgM (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := iprop(Pipeline.ΦA spec0 c ∗ Pipeline.ΦT pre0 (tbl (F := F)) c)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq (c : Dev nD) (w : Fin (cfgM (F := F)).W) : (dats m 0 c).A w = V m c (Pipeline.arrRef spec0 w) := by
  dsimp only [dats]

theorem after_0 (c : Dev nD) (t : Fin (cfgM (F := F)).N) : (dats m 0 c).after 0 t = iblk m c 0 t := by dsimp only [dats]; try rfl
theorem after_1 (c : Dev nD) (t : Fin (cfgM (F := F)).N) : (dats m 0 c).after 1 t = iblk m c 1 t := by dsimp only [dats]; try rfl
theorem after_2 (c : Dev nD) (t : Fin (cfgM (F := F)).N) : (dats m 0 c).after 2 t = iblk m c 2 t := by dsimp only [dats]; try rfl
theorem after_3 (c : Dev nD) (t : Fin (cfgM (F := F)).N) : (dats m 0 c).after 3 t = iblk m c 3 t := by dsimp only [dats]; try rfl
theorem after_4 (c : Dev nD) (t : Fin (cfgM (F := F)).N) :
    (dats m 0 c).after 4 t = outBlock (iblk m c 0 t) (iblk m c 1 t) (iblk m c 2 t) (iblk m c 3 t) := by dsimp only [dats]; try rfl

/-- Each input's current staging buffer holds its block at every point, fetched there or not: an input not fetched at a
    point has the block index of the point before, and the body left that block in place. -/
theorem before_0 (c : Dev nD) (t : Fin (cfgM (F := F)).N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfgM (F := F)).N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfgM (F := F)).N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfgM (F := F)).N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- Each window's current staging memref at point `t`, and the body as the pipeline calls it there. -/
abbrev ms0 (t : Fin (cfgM (F := F)).N) : Memref sig .tc .vmem S128x256 .f32 := spec0_0.stage ((cfgM (F := F)).slots t 0)
abbrev ms1 (t : Fin (cfgM (F := F)).N) : Memref sig .tc .vmem S128x256 .f32 := spec0_1.stage ((cfgM (F := F)).slots t 1)
abbrev ms2 (t : Fin (cfgM (F := F)).N) : Memref sig .tc .vmem S128x256 .f32 := spec0_2.stage ((cfgM (F := F)).slots t 2)
abbrev ms3 (t : Fin (cfgM (F := F)).N) : Memref sig .tc .vmem S128x256 .f32 := spec0_3.stage ((cfgM (F := F)).slots t 3)
abbrev ms4 (t : Fin (cfgM (F := F)).N) : Memref sig .tc .vmem S128x128 .f32 := spec0_4.stage ((cfgM (F := F)).slots t 4)

abbrev bodyAt (t : Fin (cfgM (F := F)).N) : Prog (TpuEff nD τ sig (Elt F) Λ₀ .tc) PUnit :=
  cc0__pairwise_kernel (grid0.coords t) (Memref.whole main_c) (Memref.isWhole_whole _) (Memref.whole main_c_0) (Memref.isWhole_whole _)
    (spec0_0.stage ((cfgM (F := F)).slots t 0)) (hstage0_0 (((cfgM (F := F)).slots t 0).cast nbuf0_0))
    (spec0_1.stage ((cfgM (F := F)).slots t 1)) (hstage0_1 (((cfgM (F := F)).slots t 1).cast nbuf0_1))
    (spec0_2.stage ((cfgM (F := F)).slots t 2)) (hstage0_2 (((cfgM (F := F)).slots t 2).cast nbuf0_2))
    (spec0_3.stage ((cfgM (F := F)).slots t 3)) (hstage0_3 (((cfgM (F := F)).slots t 3).cast nbuf0_3))
    (spec0_4.stage ((cfgM (F := F)).slots t 4)) (hstage0_4 (((cfgM (F := F)).slots t 4).cast nbuf0_4))

def bodyPre (c : Dev nD) (t : Fin (cfgM (F := F)).N) : sProp 𝕄 :=
  iprop((dats m 0 c).Φ t.castSucc ∗ (dats m 0 c).owesAt () t.castSucc
    ∗ (∃ d, owns (c : Thread nD τ) (ms0 (F := F) t) fullShare ((dats m 0 c).before 0 t d))
    ∗ (∃ d, owns (c : Thread nD τ) (ms1 (F := F) t) fullShare ((dats m 0 c).before 1 t d))
    ∗ (∃ d, owns (c : Thread nD τ) (ms2 (F := F) t) fullShare ((dats m 0 c).before 2 t d))
    ∗ (∃ d, owns (c : Thread nD τ) (ms3 (F := F) t) fullShare ((dats m 0 c).before 3 t d))
    ∗ (∃ d, owns (c : Thread nD τ) (ms4 (F := F) t) fullShare ((dats m 0 c).before 4 t d)))

def bodyPost (c : Dev nD) (t : Fin (cfgM (F := F)).N) : sProp 𝕄 :=
  iprop((dats m 0 c).Φ t.succ ∗ (dats m 0 c).owesAt () t.succ
    ∗ owns (c : Thread nD τ) (ms0 (F := F) t) fullShare ((dats m 0 c).after 0 t)
    ∗ owns (c : Thread nD τ) (ms1 (F := F) t) fullShare ((dats m 0 c).after 1 t)
    ∗ owns (c : Thread nD τ) (ms2 (F := F) t) fullShare ((dats m 0 c).after 2 t)
    ∗ owns (c : Thread nD τ) (ms3 (F := F) t) fullShare ((dats m 0 c).after 3 t)
    ∗ owns (c : Thread nD τ) (ms4 (F := F) t) fullShare ((dats m 0 c).after 4 t))

theorem sound_body (c : Dev nD) (t : Fin (cfgM (F := F)).N) :
    bodyPre m c t ⊢ wp frame (wpE (defs₀ (F := F)) Variants.none c none) Set.univ (bodyAt (F := F) t) (fun _ => bodyPost m c t) := by
  unfold bodyPre bodyPost bodyAt
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KArrays.lean ====
/-
  Two of the kernel's argument arrays are each read through two windows (the row tile's block and the column tile's block
  of the same array). Each such array is dealt to its two windows at half shares; the halves are joined when the whole
  array is needed again and split when the windows need it.
-/
import proofs.«143452_j12326556139626_2_alg».proof.Proof.KData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-- The distinct buffers behind the five windows. -/
theorem image_arr : (Finset.univ.image (Pipeline.arrRef (spec0)) : Finset (Ref sig .tc)) = insert main_arg0 (insert main_arg1 {main_v0}) := by decide

theorem arrBufs_eq (c : Dev nD) (W : (b : Ref sig .tc) → Buf (Elt F) ((c.tc : Thread nD τ).loc b)) :
    (Pipeline.arrBufs spec0 c W : sProp 𝕄)
      = iprop((((c.tc : Thread nD τ).loc main_arg0) ↦{fullShare} W main_arg0) ∗ (((c.tc : Thread nD τ).loc main_arg1) ↦{fullShare} W main_arg1)
          ∗ (((c.tc : Thread nD τ).loc main_v0) ↦{fullShare} W main_v0)) := by
  unfold Pipeline.arrBufs
  rw [image_arr, bigSep_insert (by decide), bigSep_insert (by decide), bigSep_singleton]
  rfl

theorem share_0 (c : Dev nD) : (dats m 0 c).share 0 = fullShare.left := rfl
theorem share_1 (c : Dev nD) : (dats m 0 c).share 1 = fullShare.left := rfl
theorem share_2 (c : Dev nD) : (dats m 0 c).share 2 = fullShare.right := rfl
theorem share_3 (c : Dev nD) : (dats m 0 c).share 3 = fullShare.right := rfl
theorem share_4 (c : Dev nD) : (dats m 0 c).share 4 = fullShare := rfl

theorem arr_fac (c : Dev nD) (w : Fin (cfgM (F := F)).W) (q : PosShare TreeShare) (hq : (dats m 0 c).share w = q)
    (X : Buf (Elt F) (((cfgM (F := F)).win w).arr.view.loc (c.tc : Thread nD τ))) :
    ((((cfgM (F := F)).win w).arr.view.loc (c.tc : Thread nD τ) ↦[((cfgM (F := F)).win w).arr.view.set]{(dats m 0 c).share w} X) : sProp 𝕄)
      = (((c.tc : Thread nD τ).loc (Pipeline.arrRef spec0 w)) ↦{q} X) := by
  rw [(arr_whole0 w).set_eq_univ, hq]

theorem sep_congr {M : Type} [URA M] {P P' Q Q' : sProp M} (h1 : P = P') (h2 : Q = Q') : iprop(P ∗ Q) = iprop(P' ∗ Q') := by rw [h1, h2]

/-- The windowed arrays, window by window at its share. -/
theorem arrays_open (c : Dev nD) (A : (w : Fin (cfgM (F := F)).W) → Buf (Elt F) (((cfgM (F := F)).win w).arr.view.loc (c.tc : Thread nD τ))) :
    ((dats m 0 c).arrays A : sProp 𝕄)
      = iprop((((c.tc : Thread nD τ).loc (Pipeline.arrRef spec0 0)) ↦{fullShare.left} A 0) ∗ (((c.tc : Thread nD τ).loc (Pipeline.arrRef spec0 1)) ↦{fullShare.left} A 1)
          ∗ (((c.tc : Thread nD τ).loc (Pipeline.arrRef spec0 2)) ↦{fullShare.right} A 2) ∗ (((c.tc : Thread nD τ).loc (Pipeline.arrRef spec0 3)) ↦{fullShare.right} A 3)
          ∗ (((c.tc : Thread nD τ).loc (Pipeline.arrRef spec0 4)) ↦{fullShare} A 4)) := by
  unfold Dat.arrays
  refine (bigSep_W0 _).trans ?_
  exact sep_congr (arr_fac m c 0 _ (share_0 m c) _) (sep_congr (arr_fac m c 1 _ (share_1 m c) _) (sep_congr (arr_fac m c 2 _ (share_2 m c) _)
    (sep_congr (arr_fac m c 3 _ (share_3 m c) _) (arr_fac m c 4 _ (share_4 m c) _))))

/-- An input window's array is never written. -/
theorem arrAt_in' (c : Dev nD) (w : Fin (cfgM (F := F)).W) (hw : ((cfgM (F := F)).win w).isOut = false) (n : Nat) :
    (dats m 0 c).arrAt w n = V m c (Pipeline.arrRef spec0 w) := ((dats m 0 c).arrAt_in w hw n).trans (A_eq m c w)

/-- The windowed arrays after the write-backs of the points below `n`: the two argument arrays in halves, as the region
    found them, and the output array at what was written back. -/
theorem arrays_at (c : Dev nD) (n : Nat) :
    ((dats m 0 c).arrays ((dats m 0 c).arrAt · n) : sProp 𝕄)
      = iprop((((c.tc : Thread nD τ).loc main_arg0) ↦{fullShare.left} V m c main_arg0) ∗ (((c.tc : Thread nD τ).loc main_arg1) ↦{fullShare.left} V m c main_arg1)
          ∗ (((c.tc : Thread nD τ).loc main_arg0) ↦{fullShare.right} V m c main_arg0) ∗ (((c.tc : Thread nD τ).loc main_arg1) ↦{fullShare.right} V m c main_arg1)
          ∗ (((c.tc : Thread nD τ).loc main_v0) ↦{fullShare} (dats m 0 c).arrAt 4 n)) := by
  rw [arrays_open]
  exact sep_congr (congrArg _ (arrAt_in' m c 0 rfl n)) (sep_congr (congrArg _ (arrAt_in' m c 1 rfl n)) (sep_congr (congrArg _ (arrAt_in' m c 2 rfl n))
    (sep_congr (congrArg _ (arrAt_in' m c 3 rfl n)) rfl)))

/-- The halves of the two shared arrays joined, and split again. -/
theorem arrays_join (c : Dev nD) (n : Nat) :
    ((dats m 0 c).arrays ((dats m 0 c).arrAt · n) : sProp 𝕄)
      ⊢ iprop((((c.tc : Thread nD τ).loc main_arg0) ↦{fullShare} V m c main_arg0) ∗ (((c.tc : Thread nD τ).loc main_arg1) ↦{fullShare} V m c main_arg1)
          ∗ (((c.tc : Thread nD τ).loc main_v0) ↦{fullShare} (dats m 0 c).arrAt 4 n)) := by
  rw [arrays_at]
  iintro ⟨H0, H1, H2, H3, H4⟩
  isplitl [H0 H2]
  · iapply (pointsTo_share (PosShare.mem_left_op_right fullShare)).2; isplitl [H0]; · iexact H0
    iexact H2
  isplitl [H1 H3]
  · iapply (pointsTo_share (PosShare.mem_left_op_right fullShare)).2; isplitl [H1]; · iexact H1
    iexact H3
  iexact H4

theorem arrays_split' (c : Dev nD) (n : Nat) :
    iprop((((c.tc : Thread nD τ).loc main_arg0) ↦{fullShare} V m c main_arg0) ∗ (((c.tc : Thread nD τ).loc main_arg1) ↦{fullShare} V m c main_arg1)
          ∗ (((c.tc : Thread nD τ).loc main_v0) ↦{fullShare} (dats m 0 c).arrAt 4 n))
      ⊢ ((dats m 0 c).arrays ((dats m 0 c).arrAt · n) : sProp 𝕄) := by
  rw [arrays_at]
  iintro ⟨H0, H1, H4⟩
  ihave H0' := (pointsTo_share (PosShare.mem_left_op_right fullShare)).1 $$ H0
  icases H0' with ⟨H0, H2⟩
  ihave H1' := (pointsTo_share (PosShare.mem_left_op_right fullShare)).1 $$ H1
  icases H1' with ⟨H1, H3⟩
  isplitl [H0]; · iexact H0
  isplitl [H1]; · iexact H1
  isplitl [H2]; · iexact H2
  isplitl [H3]; · iexact H3
  iexact H4

end Cert.Kernel.Hand

end
-- ==== Proof.KTail.lean ====
/-
  The host lines after the region — the two triangular masks, the transpose and the sum — touch the output array and
  buffers of their own only: they write no window's array and read no table, so they run from the region's exit
  contents within the windows' arrays and the buffers that bypass the region.
-/
import proofs.«143452_j12326556139626_2_alg».proof.Proof.KArrays

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-- The buffers the lines after the region may touch, held at `W`: the distinct buffers behind the windows and the buffers
    that bypass the region. -/
theorem held_tail (c : Dev nD) (W : Valuation τ sig (Elt F)) :
    (StableHlo.held (c.tc : Thread nD τ) (tailRefs sig pre0 spec0) W : sProp 𝕄)
      = iprop(arrBufs spec0 c (fun b => W (Proc.devRef .tc b)) ∗ unscopedRestP pre0 spec0 c (fun b => W (Proc.devRef .tc b))) := by
  classical
  have hdisj : Disjoint (Finset.univ.image (arrRef spec0)) (restRefsP sig pre0 spec0) :=
    Finset.disjoint_left.mpr fun b hb hr => (Finset.mem_sdiff.mp (Finset.mem_sdiff.mp hr).1).2 hb
  unfold StableHlo.held tailRefs arrBufs unscopedRestP
  rw [bigSep_map, bigSep_union hdisj]
  rfl

/-- The region-entry contents as a valuation, and the region's exit contents: the output array at what the grid points
    wrote back, every other buffer as the region found it. -/
abbrev V0 (c : Dev nD) : Valuation τ sig (Elt F) := StableHlo.after ([hostOps0 (F := F)] : List (List (HloOp τ sig (Elt F)))).flatten (fun b => m (c, b))

def exitVal (c : Dev nD) : Valuation τ sig (Elt F) := by
  classical exact Function.update (V0 m c) (Proc.devRef .tc main_v0) ((dats m 0 c).arrAt 4 (cfgM (F := F)).N)

theorem exitVal_v0 (c : Dev nD) : exitVal m c (Proc.devRef .tc main_v0) = (dats m 0 c).arrAt 4 (cfgM (F := F)).N := by
  unfold exitVal; exact Function.update_self ..

theorem exitVal_of_ne (c : Dev nD) (b : Ref sig .tc) (hb : b ≠ main_v0) : exitVal m c (Proc.devRef .tc b) = V m c b := by
  unfold exitVal; exact Function.update_of_ne (StableHlo.devRef_ne_of_ne hb) ..

theorem tail_fresh : ∀ ops ∈ (tailOps (F := F)), ∀ op ∈ ops, op.fresh = ∅ := by
  have h1 : (hostOps1 : List (HloOp τ sig (Elt F))).Forall fun op => op.fresh = ∅ := by simp only [List.Forall]; repeat' constructor
  have h2 : (hostOps1_1 : List (HloOp τ sig (Elt F))).Forall fun op => op.fresh = ∅ := by simp only [List.Forall]; repeat' constructor
  have h3 : (hostOps1_2 : List (HloOp τ sig (Elt F))).Forall fun op => op.fresh = ∅ := by simp only [List.Forall]; repeat' constructor
  intro ops hops op hop
  simp only [tailOps, List.mem_cons, List.mem_nil_iff, _root_.or_false] at hops
  rcases hops with rfl | rfl | rfl
  · exact (List.forall_iff_forall_mem.mp h1) op hop
  · exact (List.forall_iff_forall_mem.mp h2) op hop
  · exact (List.forall_iff_forall_mem.mp h3) op hop

/-- The lines after the region write only their own results: no window's array, and they read no table. -/
theorem tail_writes : ∀ ops ∈ (tailOps (F := F)), ∀ op ∈ ops, ∀ b : Ref sig .tc,
    b ∈ ([main_arg0, main_arg1, main_v0, main_c, main_c_0] : List (Ref sig .tc)) → Proc.devRef (τ := τ) .tc b ∉ op.writes := by
  intro ops hops op hop b hb
  simp only [tailOps, List.mem_cons, List.mem_nil_iff, _root_.or_false] at hops
  simp only [List.mem_cons, List.mem_nil_iff, _root_.or_false] at hb
  rcases hops with rfl | rfl | rfl
  · simp only [hostOps1, List.mem_cons, List.mem_nil_iff, _root_.or_false] at hop
    rcases hop with rfl | rfl | rfl | rfl | rfl | rfl | rfl | rfl | rfl
    all_goals rcases hb with rfl | rfl | rfl | rfl | rfl <;> simp only [StableHlo.nullary_writes, StableHlo.unary_writes, StableHlo.binary_writes, StableHlo.ternary_writes, Finset.mem_singleton] <;> exact StableHlo.devRef_ne_of_ne (by decide)
  · simp only [hostOps1_1, List.mem_cons, List.mem_nil_iff, _root_.or_false] at hop
    rcases hop with rfl | rfl | rfl | rfl | rfl | rfl | rfl | rfl | rfl
    all_goals rcases hb with rfl | rfl | rfl | rfl | rfl <;> simp only [StableHlo.nullary_writes, StableHlo.unary_writes, StableHlo.binary_writes, StableHlo.ternary_writes, Finset.mem_singleton] <;> exact StableHlo.devRef_ne_of_ne (by decide)
  · simp only [hostOps1_2, List.mem_cons, List.mem_nil_iff, _root_.or_false] at hop
    rcases hop with rfl | rfl
    all_goals rcases hb with rfl | rfl | rfl | rfl | rfl <;> simp only [StableHlo.nullary_writes, StableHlo.unary_writes, StableHlo.binary_writes, StableHlo.ternary_writes, Finset.mem_singleton] <;> exact StableHlo.devRef_ne_of_ne (by decide)

theorem tail_no_table : ∀ ops ∈ (tailOps (F := F)), ∀ op ∈ ops, ∀ k, Proc.devRef (τ := τ) .tc (pre0.ref k) ∉ op.bufs := by
  intro ops hops op hop k
  simp only [tailOps, List.mem_cons, List.mem_nil_iff, _root_.or_false] at hops
  rcases hops with rfl | rfl | rfl
  · simp only [hostOps1, List.mem_cons, List.mem_nil_iff, _root_.or_false] at hop
    rcases hop with rfl | rfl | rfl | rfl | rfl | rfl | rfl | rfl | rfl
    all_goals (fin_cases k <;> simp only [StableHlo.nullary_bufs, StableHlo.unary_bufs, StableHlo.binary_bufs, StableHlo.ternary_bufs, Finset.mem_insert, Finset.mem_singleton, not_or] <;> (repeat' constructor) <;> exact StableHlo.devRef_ne_of_ne (by decide))
  · simp only [hostOps1_1, List.mem_cons, List.mem_nil_iff, _root_.or_false] at hop
    rcases hop with rfl | rfl | rfl | rfl | rfl | rfl | rfl | rfl | rfl
    all_goals (fin_cases k <;> simp only [StableHlo.nullary_bufs, StableHlo.unary_bufs, StableHlo.binary_bufs, StableHlo.ternary_bufs, Finset.mem_insert, Finset.mem_singleton, not_or] <;> (repeat' constructor) <;> exact StableHlo.devRef_ne_of_ne (by decide))
  · simp only [hostOps1_2, List.mem_cons, List.mem_nil_iff, _root_.or_false] at hop
    rcases hop with rfl | rfl
    all_goals (fin_cases k <;> simp only [StableHlo.nullary_bufs, StableHlo.unary_bufs, StableHlo.binary_bufs, StableHlo.ternary_bufs, Finset.mem_insert, Finset.mem_singleton, not_or] <;> (repeat' constructor) <;> exact StableHlo.devRef_ne_of_ne (by decide))

theorem tail_sub : ∀ ops ∈ (tailOps (F := F)), ∀ op ∈ ops, op.bufs ⊆ tailRefs sig pre0 spec0 := by
  intro ops hops op hop
  refine sub_tailRefs pre0 spec0 op ?_ (tail_no_table ops hops op hop)
  simp only [tailOps, List.mem_cons, List.mem_nil_iff, _root_.or_false] at hops
  rcases hops with rfl | rfl | rfl
  · exact (List.forall_iff_forall_mem.mp hostOps1_sub) op hop
  · exact (List.forall_iff_forall_mem.mp hostOps1_1_sub) op hop
  · exact (List.forall_iff_forall_mem.mp hostOps1_2_sub) op hop

end Cert.Kernel.Hand

end
-- ==== Proof.KRun.lean ====
/-
  The launch and the run. The region is entered with the two shared argument arrays dealt to their windows in halves;
  at its exit the halves are joined, the host lines after the region run from the exit contents — the output array at
  what the grid points wrote back, every other buffer as the region found it — and the arrays are dealt again for the
  final reading. The run ends with the result at those lines' value and the two argument arrays unchanged.
-/
import proofs.«143452_j12326556139626_2_alg».proof.Proof.KTail

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-- A bypassing buffer is not the output array. -/
theorem ne_v0_of_rest {b : Ref sig .tc} (hb : b ∈ restRefsP sig pre0 spec0) : b ≠ main_v0 := fun e =>
  (Finset.mem_sdiff.mp (Finset.mem_sdiff.mp hb).1).2 (e ▸ (by decide : main_v0 ∈ Finset.univ.image (arrRef spec0)))

theorem rest_exit (c : Dev nD) :
    (unscopedRestP pre0 spec0 c (fun b => exitVal m c (Proc.devRef .tc b)) : sProp 𝕄) = unscopedRestP pre0 spec0 c (V m c) := by
  unfold unscopedRestP
  exact bigSep_congr fun b hb => congrArg (fun X => (((c.tc : Thread nD τ).loc b) ↦{fullShare} X : sProp 𝕄)) (exitVal_of_ne m c b (ne_v0_of_rest hb))

/-- The lines after the region leave the windows' arrays as the region left them. -/
theorem after_keep (c : Dev nD) (b : Ref sig .tc) (hb : b ∈ ([main_arg0, main_arg1, main_v0, main_c, main_c_0] : List (Ref sig .tc))) :
    StableHlo.after (tailOps (F := F)).flatten (exitVal m c) (Proc.devRef .tc b) = exitVal m c (Proc.devRef .tc b) :=
  StableHlo.after_of_forall_not_mem _ _ fun op hop => by
    obtain ⟨ops, hops, hop⟩ := List.mem_flatten.mp hop
    exact tail_writes ops hops op hop b hb

theorem held_exit (c : Dev nD) :
    (StableHlo.held (c.tc : Thread nD τ) (tailRefs sig pre0 spec0) (exitVal m c) : sProp 𝕄)
      = iprop(((((c.tc : Thread nD τ).loc main_arg0) ↦{fullShare} V m c main_arg0) ∗ (((c.tc : Thread nD τ).loc main_arg1) ↦{fullShare} V m c main_arg1)
          ∗ (((c.tc : Thread nD τ).loc main_v0) ↦{fullShare} (dats m 0 c).arrAt 4 (cfgM (F := F)).N)) ∗ unscopedRestP pre0 spec0 c (V m c)) := by
  rw [held_tail, arrBufs_eq, rest_exit, exitVal_of_ne m c main_arg0 (by decide), exitVal_of_ne m c main_arg1 (by decide), exitVal_v0]

theorem held_after (c : Dev nD) :
    (StableHlo.held (c.tc : Thread nD τ) (tailRefs sig pre0 spec0) (StableHlo.after (tailOps (F := F)).flatten (exitVal m c)) : sProp 𝕄)
      = iprop(((((c.tc : Thread nD τ).loc main_arg0) ↦{fullShare} V m c main_arg0) ∗ (((c.tc : Thread nD τ).loc main_arg1) ↦{fullShare} V m c main_arg1)
          ∗ (((c.tc : Thread nD τ).loc main_v0) ↦{fullShare} (dats m 0 c).arrAt 4 (cfgM (F := F)).N))
          ∗ unscopedRestP pre0 spec0 c (fun b => StableHlo.after (tailOps (F := F)).flatten (exitVal m c) (Proc.devRef .tc b))) := by
  rw [held_tail, arrBufs_eq, after_keep m c main_arg0 (by simp), after_keep m c main_arg1 (by simp), after_keep m c main_v0 (by simp),
    exitVal_of_ne m c main_arg0 (by decide), exitVal_of_ne m c main_arg1 (by decide), exitVal_v0]

set_option backward.isDefEq.respectTransparency.types false in
/-- The lines after the region, from the region's exit: the arrays rejoined, the lines run, the arrays dealt again. -/
theorem htail (c : Dev nD) (Q' : PUnit → sProp 𝕄) :
    iprop((iprop((dats m 0 c).arrays ((dats m 0 c).arrAt · (cfgM (F := F)).N)
              ∗ unscopedRestP pre0 spec0 c (fun b => StableHlo.after (tailOps (F := F)).flatten (exitVal m c) (Proc.devRef .tc b))) -∗ Q' ⟨⟩)
        ∗ boundary (c.tc : Thread nD τ) ∗ (dats m 0 c).arrays ((dats m 0 c).arrAt · (cfgM (F := F)).N) ∗ unscopedRestP pre0 spec0 c (V m c))
      ⊢ wp frame (wpE (defs (F := F)) (Variants.lift Variants.none) (c.tc : Thread nD τ) none) Set.univ (chain ((tailOps (F := F)).map StableHlo.seq)) Q' := by
  rw [← List.append_nil ((tailOps (F := F)).map StableHlo.seq)]
  iintro ⟨Hk, Hb, Ha, HZ⟩
  ihave Ha' := (arrays_join m c (cfgM (F := F)).N) $$ Ha
  iapply (wp_seqs_then pcfgs defs₀ Variants.none c (tailRefs sig pre0 spec0) [] (tailOps (F := F)) tail_sub tail_fresh (exitVal m c)) $$ [Hb Ha' HZ]
  · isplitl [Hb]; · iexact Hb
    rw [held_exit]
    isplitl [Ha']; · iexact Ha'
    iexact HZ
  iintro Hb
  rw [chain_nil, wp_pure, held_after]
  imodintro
  iapply Hk
  icases Hb with ⟨-, Ha, HZ⟩
  isplitl [Ha]; · iapply (arrays_split' m c (cfgM (F := F)).N); iexact Ha
  iexact HZ

/-- The host lines before the region leave the two argument arrays as launched. -/
theorem V_arg0 (c : Dev nD) : V m c main_arg0 = m ((c : Thread nD τ).loc main_arg0) := by
  show StableHlo.after (hostOps0 (F := F)) (fun b => m (c, b)) (Proc.devRef .tc main_arg0) = _
  after_results
theorem V_arg1 (c : Dev nD) : V m c main_arg1 = m ((c : Thread nD τ).loc main_arg1) := by
  show StableHlo.after (hostOps0 (F := F)) (fun b => m (c, b)) (Proc.devRef .tc main_arg1) = _
  after_results

set_option backward.isDefEq.respectTransparency.types false in
/-- THE RUN: from any memory with zero counters every weakly fair execution of @main terminates, the result at the value
    the lines after the region compute from the region's exit contents, the two argument arrays unchanged. -/
theorem run_main : θ_run (defs (F := F)) (onTc (τ := τ) (main (F := F))) ⟨m, fun _ => 0, ρ⟩ (fun r => ∀ c : Dev nD,
      r.2.mem ((c.tc : Thread nD τ).loc main_v4) = StableHlo.after (tailOps (F := F)).flatten (exitVal m c) (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact θ_run_region_pf_tail pcfgs (fun _ => adm (F := F)) (dats m) () (cellOf_inj (fun _ => adm (F := F))) (0 : Fin 1) winFacts₀0
    (OwnSemFacts.none spec0) preFacts0 emb₁ defs₀ Variants.none m ρ main
    (fun _ => chain ((tailOps (F := F)).map StableHlo.seq)) (fun c => (body_obligation m c).loose)
    block_pos0 arr_whole0 stage_whole0 (fun _ _ => rfl)
    (G := fun _ => iprop(emp)) (u₀ := initOf (cells (pin pcfgs fun _ => adm (F := F)) (cellOf_inj fun _ => adm (F := F))) (launchToks (pin pcfgs fun _ => adm (F := F)) (cellOf_inj fun _ => adm (F := F))))
    (hu₀ := by
      iintro Hu; imodintro
      isplitl [Hu]; · iapply (show (ownU _ : sProp 𝕄) ⊢ BI.own (emb₁ (initOf (cells (pin pcfgs fun _ => adm (F := F)) (cellOf_inj fun _ => adm (F := F))) (launchToks (pin pcfgs fun _ => adm (F := F)) (cellOf_inj fun _ => adm (F := F))))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by rw [arrBufs_eq]; exact arrays_split' m c 0)
    (hpf := V_pre m)
    (X := fun c => iprop(∃ r, prngReg c r)) (Y := fun c => iprop(∃ r, prngReg c r))
    (Z := fun c => unscopedRestP (Ix := Unit) (Name := ℕ) (U := UR sig nD τ) (Lvl := ℕ) pre0 spec0 c (V m c))
    (Z' := fun c => unscopedRestP (Ix := Unit) (Name := ℕ) (U := UR sig nD τ) (Lvl := ℕ) pre0 spec0 c
      (fun b => StableHlo.after (tailOps (F := F)).flatten (exitVal m c) (Proc.devRef .tc b)))
    (hX := fun c => by
      iintro ⟨HU, -, -, -, Hp, -⟩; imodintro
      isplitl [Hp]; · iexists _; iexact Hp
      iexact HU)
    (hin := fun c => (show _ ⊢ iprop(ΦA spec0 c ∗ ΦT pre0 (tbl (F := F)) c) by
      unfold ΦA ΦT; iintro ⟨Hp, Ht, Hr⟩
      isplitr [Ht]
      · isplitl [Hr] <;> iassumption
      · iexact Ht))
    (hout := fun c => (show (dats m 0 c).Φ (Fin.last (cfgM (F := F)).N) ⊢ ΦA spec0 c by
      show iprop(ΦA spec0 c ∗ ΦT pre0 (tbl (F := F)) c) ⊢ ΦA spec0 c
      iintro ⟨H, -⟩; iexact H).trans (by
      rw [ownSems0_none]; unfold ΦA
      iintro ⟨Hr, Hp⟩
      isplitl [Hp]; · iexact Hp
      isplitr; · iempintro
      iexact Hr))
    (htail := fun c Q' => htail m c Q')
    (QY := fun c s => ∀ b ∈ restRefsP sig pre0 spec0, s.mem ((c.tc : Thread nD τ).loc b)
      = StableHlo.after (tailOps (F := F)).flatten (exitVal m c) (Proc.devRef .tc b))
    (hY := fun c s' => by
      iintro ⟨-, HU, HSI⟩
      unfold unscopedRestP
      imodintro
      iapply (pointsTo_read_all (restRefsP sig pre0 spec0) (fun b => (c.tc : Thread nD τ).loc b)
        (fun b => StableHlo.after (tailOps (F := F)).flatten (exitVal m c) (Proc.devRef .tc b)) s')
      isplitl [HU] <;> iassumption)
    (hQ := fun s h c => ⟨(h c).2.2 main_v4 (by decide),
      ((h c).1 0).trans ((arrAt_in' m c 0 rfl _).trans (V_arg0 m c)),
      ((h c).1 1).trans ((arrAt_in' m c 1 rfl _).trans (V_arg1 m c))⟩)

end Cert.Kernel.Hand

end
-- ==== Proof.Entry.lean ====
/-
  The kernel's launch, first part: the host lines before the region write the two constant tile-pair tables; the
  region is entered with every other buffer as launched. The tables' contents are the literal lists of the 36
  upper-triangular tile pairs (bi, bj), bi ≤ bj < 8, so every window's block lies inside its array.
-/
import proofs.«143452_j12326556139626_2_alg».proof.Proof.Gen.KernelIdeal.Launch
import proofs.«143452_j12326556139626_2_alg».proof.Proof.Gen.KernelIdeal.Skeleton
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: the launch contents after the two table constants. -/
abbrev V (c : Dev nD) (b : Ref sig .tc) : Buf (Elt F) ((c : Thread nD τ).loc b) :=
  StableHlo.after ([hostOps0 (F := F)] : List (List (HloOp τ sig (Elt F)))).flatten (fun b => m (c, b)) b

/-- The host lines after the region: the two triangular masks, the transpose and the sum. -/
abbrev tailOps : List (List (HloOp τ sig (Elt F))) := [hostOps1, hostOps1_1, hostOps1_2]

theorem hmain (𝒱₀ : Variants) : Pipeline.HMainPK (Ix := Unit) (Name := ℕ) (U := UR sig nD τ) (Lvl := ℕ) pcfgs 0 defs₀ 𝒱₀ m (main (F := F)) (V m)
    (fun _ => Pipeline.chain ((tailOps (F := F)).map StableHlo.seq)) :=
  Pipeline.hmainP_around pcfgs 0 defs₀ 𝒱₀ m main [hostOps0] tailOps hostOps0_sub ⟨rfl, rfl⟩ fun c => (main_chain c).trans rfl

end Cert.KernelIdeal.Hand

end
-- ==== Proof.Tables.lean ====
/-
  The two prefetched tables hold the 36 upper-triangular tile pairs (bi, bj), bi ≤ bj < 8, in row-major order of the
  triangle. Every entry is below 8, so each 128-row block a window's index map names lies inside its array; this is
  the pipeline's side condition at these contents.
-/
import proofs.«143452_j12326556139626_2_alg».proof.Proof.Entry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The tables' contents: the row tile and the column tile of each of the 36 pairs. -/
def tbl : pre0.Contents (Elt F) := fun k => match k with
  | ⟨0, _⟩ => (fun i => lit0 (S36.rowMajor i) : S36.Idx → BitVec 32)
  | ⟨1, _⟩ => (fun i => lit1 (S36.rowMajor i) : S36.Idx → BitVec 32)

theorem lit0_lt : ∀ j : Fin 36, (lit0 j).toNat < 8 := by decide
theorem lit1_lt : ∀ j : Fin 36, (lit1 j).toNat < 8 := by decide

/-- The region finds the tables at those contents. -/
theorem V_pre (c : Dev nD) (k : Fin 2) : V m c (pre0.ref k) = tbl (F := F) k := by
  match k with
  | ⟨0, _⟩ =>
    show StableHlo.after (hostOps0 (F := F)) (fun b => m (c, b)) (Proc.devRef .tc main_c) = _
    after_results; rfl
  | ⟨1, _⟩ =>
    show StableHlo.after (hostOps0 (F := F)) (fun b => m (c, b)) (Proc.devRef .tc main_c_0) = _
    after_results; rfl

/-- Every block the index maps name at these contents lies inside its array. -/
theorem ok : ok0 (F := F) (tbl (F := F)) := by
  refine ⟨fun i => ?_, fun i => ?_, fun i => ?_, fun i => ?_, fun i => ?_⟩
  · obtain ⟨j, e⟩ : ∃ j : Fin 36, cc0_transform_0 Facts₀.k0_off1_inb Facts₀.numel1_S1 (tbl (F := F)) i = ![(lit0 j).toNat, 0] := ⟨_, rfl⟩
    refine ⟨fun a => ?_, Or.inl rfl⟩
    rw [e]; have := lit0_lt j
    fin_cases a <;> simp [S128x256, S1024x256] <;> omega
  · obtain ⟨j, e⟩ : ∃ j : Fin 36, cc0_transform_1 Facts₀.k0_off1_inb Facts₀.numel1_S1 (tbl (F := F)) i = ![(lit0 j).toNat, 0] := ⟨_, rfl⟩
    refine ⟨fun a => ?_, Or.inl rfl⟩
    rw [e]; have := lit0_lt j
    fin_cases a <;> simp [S128x256, S1024x256] <;> omega
  · obtain ⟨j, e⟩ : ∃ j : Fin 36, cc0_transform_2 Facts₀.k0_off1_inb Facts₀.numel1_S1 (tbl (F := F)) i = ![(lit1 j).toNat, 0] := ⟨_, rfl⟩
    refine ⟨fun a => ?_, Or.inl rfl⟩
    rw [e]; have := lit1_lt j
    fin_cases a <;> simp [S128x256, S1024x256] <;> omega
  · obtain ⟨j, e⟩ : ∃ j : Fin 36, cc0_transform_3 Facts₀.k0_off1_inb Facts₀.numel1_S1 (tbl (F := F)) i = ![(lit1 j).toNat, 0] := ⟨_, rfl⟩
    refine ⟨fun a => ?_, Or.inl rfl⟩
    rw [e]; have := lit1_lt j
    fin_cases a <;> simp [S128x256, S1024x256] <;> omega
  · obtain ⟨j, e⟩ : ∃ j : Fin 36, cc0_transform_4 Facts₀.k0_off1_inb Facts₀.numel1_S1 (tbl (F := F)) i = ![(lit0 j).toNat, (lit1 j).toNat] := ⟨_, rfl⟩
    refine ⟨fun a => ?_, Or.inl rfl⟩
    rw [e]; have := lit0_lt j; have := lit1_lt j
    fin_cases a <;> simp [S128x128, S1024x1024] <;> omega

/-- The tables' contents as admissible contents, and the pipeline at them. -/
abbrev adm : (pcfg0 (F := F)).Adm := ⟨tbl, ok⟩
abbrev cfgM : Pipeline.Cfg sig Λ₀ := cfg0 (adm (F := F))

end Cert.KernelIdeal.Hand

end
-- ==== Proof.Body.lean ====
/-
  The kernel body at one grid point. It loads the four input blocks whole, and stores the 128×128 output block in four
  row bands of 32 rows, each band the (negated) sum over both halves of the feature axis of the pairwise terms of 32
  rows of the first pair of blocks against all 128 rows of the second pair. What the body leaves in the output block
  is therefore the four bands laid over one another, a function of the four input blocks alone.
-/
import proofs.«143452_j12326556139626_2_alg».proof.Proof.Tables

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole input block, and the four row bands of the output block. -/
abbrev rin : Rect S128x256 := Rect.unit (s := S128x256) ![0, 0] S128x256.size inb_S128x256_S128x256_0_0
abbrev band0 : Rect S128x128 := Rect.unit (s := S128x128) ![0, 0] S32x128.size inb_S128x128_S32x128_0_0
abbrev band1 : Rect S128x128 := Rect.unit (s := S128x128) ![32, 0] S32x128.size inb_S128x128_S32x128_32_0
abbrev band2 : Rect S128x128 := Rect.unit (s := S128x128) ![64, 0] S32x128.size inb_S128x128_S32x128_64_0
abbrev band3 : Rect S128x128 := Rect.unit (s := S128x128) ![96, 0] S32x128.size inb_S128x128_S32x128_96_0

/-- The normalised means and the variances of the two pairs of blocks. -/
abbrev muI (x0 : Vec F S128x256 .f32) : FVec F S128x256 .f32 := k0_pay2 (View.ld x0 rin)
abbrev sgI (x1 : Vec F S128x256 .f32) : FVec F S128x256 .f32 := k0_pay3 (View.ld x1 rin)
abbrev muJ (x2 : Vec F S128x256 .f32) : FVec F S128x256 .f32 := k0_pay4 (View.ld x2 rin)
abbrev sgJ (x3 : Vec F S128x256 .f32) : FVec F S128x256 .f32 := k0_pay5 (View.ld x3 rin)

/-- The four bands the body stores, in the order it stores them. -/
def bandVal0 (x0 x1 x2 x3 : Vec F S128x256 .f32) : FVec F S32x128 .f32 :=
  k0_pay10 (muJ x2) (sgJ x3) (k0_pay6 (View.ld x0 rin)) (k0_pay7 (View.ld x1 rin)) (k0_pay8 (F := F))
    (k0_pay9 (View.ld x0 rin) (View.ld x1 rin) (View.ld x2 rin) (View.ld x3 rin))
def bandVal1 (x0 x1 x2 x3 : Vec F S128x256 .f32) : FVec F S32x128 .f32 :=
  k0_pay15 (muJ x2) (sgJ x3) (k0_pay11 (muI x0)) (k0_pay12 (sgI x1)) (k0_pay13 (F := F)) (k0_pay14 (muI x0) (sgI x1) (muJ x2) (sgJ x3))
def bandVal2 (x0 x1 x2 x3 : Vec F S128x256 .f32) : FVec F S32x128 .f32 :=
  k0_pay20 (muJ x2) (sgJ x3) (k0_pay16 (muI x0)) (k0_pay17 (sgI x1)) (k0_pay18 (F := F)) (k0_pay19 (muI x0) (sgI x1) (muJ x2) (sgJ x3))
def bandVal3 (x0 x1 x2 x3 : Vec F S128x256 .f32) : FVec F S32x128 .f32 :=
  k0_pay1 (muJ x2) (sgJ x3) (k0_pay21 (muI x0)) (k0_pay22 (sgI x1)) (k0_pay23 (muI x0) (sgI x1) (muJ x2) (sgJ x3))

/-- What the body leaves in the output block: its four stores as pieces, last first. -/
def outBlock (x0 x1 x2 x3 : Vec F S128x256 .f32) : Vec F S128x128 .f32 :=
  View.canon [⟨band3, bandVal3 x0 x1 x2 x3⟩, ⟨band2, bandVal2 x0 x1 x2 x3⟩, ⟨band1, bandVal1 x0 x1 x2 x3⟩, ⟨band0, bandVal0 x0 x1 x2 x3⟩]

/-- The four bands tile the block. -/
theorem bands_cover (p3 p2 p1 p0 : Vec F S32x128 .f32) (y : S128x128.Idx) :
    ∃ pc ∈ ([⟨band3, p3⟩, ⟨band2, p2⟩, ⟨band1, p1⟩, ⟨band0, p0⟩] : List (View.Piece (Elt F) S128x128 .f32)), y ∈ pc.1.set :=
  View.cover_of_tiled [⟨band3, p3⟩, ⟨band2, p2⟩, ⟨band1, p1⟩, ⟨band0, p0⟩] S32x128.size (by rfl) y

set_option maxHeartbeats 1000000 in
/-- The body on whole staging memrefs, the inputs' at read contents `x0 … x3` and the output's at anything, runs to the
    continuation holding the inputs' as they were and the output's at `outBlock` of them. -/
theorem sound_kernel (c : Dev nD) (E : Set ℕ) (i : grid0.Coords)
    (arg1 : Memref sig .tc .smem S36 .i32) (harg1 : arg1.IsWhole) (arg2 : Memref sig .tc .smem S36 .i32) (harg2 : arg2.IsWhole)
    (arg3 : Memref sig .tc .vmem S128x256 .f32) (harg3 : arg3.IsWhole) (arg4 : Memref sig .tc .vmem S128x256 .f32) (harg4 : arg4.IsWhole)
    (arg5 : Memref sig .tc .vmem S128x256 .f32) (harg5 : arg5.IsWhole) (arg6 : Memref sig .tc .vmem S128x256 .f32) (harg6 : arg6.IsWhole)
    (arg7 : Memref sig .tc .vmem S128x128 .f32) (harg7 : arg7.IsWhole)
    (x0 x1 x2 x3 : Vec F S128x256 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (outBlock x0 x1 x2 x3)) -∗ K ⟨⟩))
      ⊢ wp frame (wpE (defs₀ (F := F)) Variants.none c none) E
          (cc0__pairwise_kernel i arg1 harg1 arg2 harg2 arg3 harg3 arg4 harg4 arg5 harg5 arg6 harg6 arg7 harg7) K := by
  simp only [cc0__pairwise_kernel_eq_skeleton]; unfold cc0__pairwise_kernel_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (bands_cover _ _ _ _)

end Cert.KernelIdeal.Hand

end
-- ==== Proof.Data.lean ====
/-
  The pipeline's proof data. At every grid point each input window's staging buffer holds that window's block of its
  argument array (rows 128·bi… of the means or of the log-variances, bi or bj the point's tile), and after the body the
  output window's buffer holds the body's four bands of those blocks. The two arrays that two windows read are each
  held at half shares by the two windows.
-/
import proofs.«143452_j12326556139626_2_alg».proof.Proof.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (c : Dev nD) (w : Fin (cfgM (F := F)).W) (t : Fin (cfgM (F := F)).N) :
    (((cfgM (F := F)).win w).xblock ((cfgM (F := F)).grid.coords t)).Idx → Elt F ((cfgM (F := F)).win w).elt :=
  (((cfgM (F := F)).win w).blk t).view.read (Elt F) (V m c (Pipeline.arrRef spec0 w))

/-- The proof data of the pipeline on core `c`. -/
def dats (_ : Fin 1) (c : Dev nD) : Dat τ (Elt F) Unit ℕ (UR sig nD τ) ℕ (cfgM (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock (iblk m c 0 t) (iblk m c 1 t) (iblk m c 2 t) (iblk m c 3 t)
  Φ _ := iprop(Pipeline.ΦA spec0 c ∗ Pipeline.ΦT pre0 (tbl (F := F)) c)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq (c : Dev nD) (w : Fin (cfgM (F := F)).W) : (dats m 0 c).A w = V m c (Pipeline.arrRef spec0 w) := by
  dsimp only [dats]

theorem after_0 (c : Dev nD) (t : Fin (cfgM (F := F)).N) : (dats m 0 c).after 0 t = iblk m c 0 t := by dsimp only [dats]; try rfl
theorem after_1 (c : Dev nD) (t : Fin (cfgM (F := F)).N) : (dats m 0 c).after 1 t = iblk m c 1 t := by dsimp only [dats]; try rfl
theorem after_2 (c : Dev nD) (t : Fin (cfgM (F := F)).N) : (dats m 0 c).after 2 t = iblk m c 2 t := by dsimp only [dats]; try rfl
theorem after_3 (c : Dev nD) (t : Fin (cfgM (F := F)).N) : (dats m 0 c).after 3 t = iblk m c 3 t := by dsimp only [dats]; try rfl
theorem after_4 (c : Dev nD) (t : Fin (cfgM (F := F)).N) :
    (dats m 0 c).after 4 t = outBlock (iblk m c 0 t) (iblk m c 1 t) (iblk m c 2 t) (iblk m c 3 t) := by dsimp only [dats]; try rfl

/-- Each input's current staging buffer holds its block at every point, fetched there or not: an input not fetched at a
    point has the block index of the point before, and the body left that block in place. -/
theorem before_0 (c : Dev nD) (t : Fin (cfgM (F := F)).N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfgM (F := F)).N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfgM (F := F)).N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfgM (F := F)).N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- Each window's current staging memref at point `t`, and the body as the pipeline calls it there. -/
abbrev ms0 (t : Fin (cfgM (F := F)).N) : Memref sig .tc .vmem S128x256 .f32 := spec0_0.stage ((cfgM (F := F)).slots t 0)
abbrev ms1 (t : Fin (cfgM (F := F)).N) : Memref sig .tc .vmem S128x256 .f32 := spec0_1.stage ((cfgM (F := F)).slots t 1)
abbrev ms2 (t : Fin (cfgM (F := F)).N) : Memref sig .tc .vmem S128x256 .f32 := spec0_2.stage ((cfgM (F := F)).slots t 2)
abbrev ms3 (t : Fin (cfgM (F := F)).N) : Memref sig .tc .vmem S128x256 .f32 := spec0_3.stage ((cfgM (F := F)).slots t 3)
abbrev ms4 (t : Fin (cfgM (F := F)).N) : Memref sig .tc .vmem S128x128 .f32 := spec0_4.stage ((cfgM (F := F)).slots t 4)

abbrev bodyAt (t : Fin (cfgM (F := F)).N) : Prog (TpuEff nD τ sig (Elt F) Λ₀ .tc) PUnit :=
  cc0__pairwise_kernel (grid0.coords t) (Memref.whole main_c) (Memref.isWhole_whole _) (Memref.whole main_c_0) (Memref.isWhole_whole _)
    (spec0_0.stage ((cfgM (F := F)).slots t 0)) (hstage0_0 (((cfgM (F := F)).slots t 0).cast nbuf0_0))
    (spec0_1.stage ((cfgM (F := F)).slots t 1)) (hstage0_1 (((cfgM (F := F)).slots t 1).cast nbuf0_1))
    (spec0_2.stage ((cfgM (F := F)).slots t 2)) (hstage0_2 (((cfgM (F := F)).slots t 2).cast nbuf0_2))
    (spec0_3.stage ((cfgM (F := F)).slots t 3)) (hstage0_3 (((cfgM (F := F)).slots t 3).cast nbuf0_3))
    (spec0_4.stage ((cfgM (F := F)).slots t 4)) (hstage0_4 (((cfgM (F := F)).slots t 4).cast nbuf0_4))

def bodyPre (c : Dev nD) (t : Fin (cfgM (F := F)).N) : sProp 𝕄 :=
  iprop((dats m 0 c).Φ t.castSucc ∗ (dats m 0 c).owesAt () t.castSucc
    ∗ (∃ d, owns (c : Thread nD τ) (ms0 (F := F) t) fullShare ((dats m 0 c).before 0 t d))
    ∗ (∃ d, owns (c : Thread nD τ) (ms1 (F := F) t) fullShare ((dats m 0 c).before 1 t d))
    ∗ (∃ d, owns (c : Thread nD τ) (ms2 (F := F) t) fullShare ((dats m 0 c).before 2 t d))
    ∗ (∃ d, owns (c : Thread nD τ) (ms3 (F := F) t) fullShare ((dats m 0 c).before 3 t d))
    ∗ (∃ d, owns (c : Thread nD τ) (ms4 (F := F) t) fullShare ((dats m 0 c).before 4 t d)))

def bodyPost (c : Dev nD) (t : Fin (cfgM (F := F)).N) : sProp 𝕄 :=
  iprop((dats m 0 c).Φ t.succ ∗ (dats m 0 c).owesAt () t.succ
    ∗ owns (c : Thread nD τ) (ms0 (F := F) t) fullShare ((dats m 0 c).after 0 t)
    ∗ owns (c : Thread nD τ) (ms1 (F := F) t) fullShare ((dats m 0 c).after 1 t)
    ∗ owns (c : Thread nD τ) (ms2 (F := F) t) fullShare ((dats m 0 c).after 2 t)
    ∗ owns (c : Thread nD τ) (ms3 (F := F) t) fullShare ((dats m 0 c).after 3 t)
    ∗ owns (c : Thread nD τ) (ms4 (F := F) t) fullShare ((dats m 0 c).after 4 t))

theorem sound_body (c : Dev nD) (t : Fin (cfgM (F := F)).N) :
    bodyPre m c t ⊢ wp frame (wpE (defs₀ (F := F)) Variants.none c none) Set.univ (bodyAt (F := F) t) (fun _ => bodyPost m c t) := by
  unfold bodyPre bodyPost bodyAt
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.Arrays.lean ====
/-
  Two of the kernel's argument arrays are each read through two windows (the row tile's block and the column tile's block
  of the same array). Each such array is dealt to its two windows at half shares; the halves are joined when the whole
  array is needed again and split when the windows need it.
-/
import proofs.«143452_j12326556139626_2_alg».proof.Proof.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-- The distinct buffers behind the five windows. -/
theorem image_arr : (Finset.univ.image (Pipeline.arrRef (spec0)) : Finset (Ref sig .tc)) = insert main_arg0 (insert main_arg1 {main_v0}) := by decide

theorem arrBufs_eq (c : Dev nD) (W : (b : Ref sig .tc) → Buf (Elt F) ((c.tc : Thread nD τ).loc b)) :
    (Pipeline.arrBufs spec0 c W : sProp 𝕄)
      = iprop((((c.tc : Thread nD τ).loc main_arg0) ↦{fullShare} W main_arg0) ∗ (((c.tc : Thread nD τ).loc main_arg1) ↦{fullShare} W main_arg1)
          ∗ (((c.tc : Thread nD τ).loc main_v0) ↦{fullShare} W main_v0)) := by
  unfold Pipeline.arrBufs
  rw [image_arr, bigSep_insert (by decide), bigSep_insert (by decide), bigSep_singleton]
  rfl

theorem share_0 (c : Dev nD) : (dats m 0 c).share 0 = fullShare.left := rfl
theorem share_1 (c : Dev nD) : (dats m 0 c).share 1 = fullShare.left := rfl
theorem share_2 (c : Dev nD) : (dats m 0 c).share 2 = fullShare.right := rfl
theorem share_3 (c : Dev nD) : (dats m 0 c).share 3 = fullShare.right := rfl
theorem share_4 (c : Dev nD) : (dats m 0 c).share 4 = fullShare := rfl

theorem arr_fac (c : Dev nD) (w : Fin (cfgM (F := F)).W) (q : PosShare TreeShare) (hq : (dats m 0 c).share w = q)
    (X : Buf (Elt F) (((cfgM (F := F)).win w).arr.view.loc (c.tc : Thread nD τ))) :
    ((((cfgM (F := F)).win w).arr.view.loc (c.tc : Thread nD τ) ↦[((cfgM (F := F)).win w).arr.view.set]{(dats m 0 c).share w} X) : sProp 𝕄)
      = (((c.tc : Thread nD τ).loc (Pipeline.arrRef spec0 w)) ↦{q} X) := by
  rw [(arr_whole0 w).set_eq_univ, hq]

theorem sep_congr {M : Type} [URA M] {P P' Q Q' : sProp M} (h1 : P = P') (h2 : Q = Q') : iprop(P ∗ Q) = iprop(P' ∗ Q') := by rw [h1, h2]

/-- The windowed arrays, window by window at its share. -/
theorem arrays_open (c : Dev nD) (A : (w : Fin (cfgM (F := F)).W) → Buf (Elt F) (((cfgM (F := F)).win w).arr.view.loc (c.tc : Thread nD τ))) :
    ((dats m 0 c).arrays A : sProp 𝕄)
      = iprop((((c.tc : Thread nD τ).loc (Pipeline.arrRef spec0 0)) ↦{fullShare.left} A 0) ∗ (((c.tc : Thread nD τ).loc (Pipeline.arrRef spec0 1)) ↦{fullShare.left} A 1)
          ∗ (((c.tc : Thread nD τ).loc (Pipeline.arrRef spec0 2)) ↦{fullShare.right} A 2) ∗ (((c.tc : Thread nD τ).loc (Pipeline.arrRef spec0 3)) ↦{fullShare.right} A 3)
          ∗ (((c.tc : Thread nD τ).loc (Pipeline.arrRef spec0 4)) ↦{fullShare} A 4)) := by
  unfold Dat.arrays
  refine (bigSep_W0 _).trans ?_
  exact sep_congr (arr_fac m c 0 _ (share_0 m c) _) (sep_congr (arr_fac m c 1 _ (share_1 m c) _) (sep_congr (arr_fac m c 2 _ (share_2 m c) _)
    (sep_congr (arr_fac m c 3 _ (share_3 m c) _) (arr_fac m c 4 _ (share_4 m c) _))))

/-- An input window's array is never written. -/
theorem arrAt_in' (c : Dev nD) (w : Fin (cfgM (F := F)).W) (hw : ((cfgM (F := F)).win w).isOut = false) (n : Nat) :
    (dats m 0 c).arrAt w n = V m c (Pipeline.arrRef spec0 w) := ((dats m 0 c).arrAt_in w hw n).trans (A_eq m c w)

/-- The windowed arrays after the write-backs of the points below `n`: the two argument arrays in halves, as the region
    found them, and the output array at what was written back. -/
theorem arrays_at (c : Dev nD) (n : Nat) :
    ((dats m 0 c).arrays ((dats m 0 c).arrAt · n) : sProp 𝕄)
      = iprop((((c.tc : Thread nD τ).loc main_arg0) ↦{fullShare.left} V m c main_arg0) ∗ (((c.tc : Thread nD τ).loc main_arg1) ↦{fullShare.left} V m c main_arg1)
          ∗ (((c.tc : Thread nD τ).loc main_arg0) ↦{fullShare.right} V m c main_arg0) ∗ (((c.tc : Thread nD τ).loc main_arg1) ↦{fullShare.right} V m c main_arg1)
          ∗ (((c.tc : Thread nD τ).loc main_v0) ↦{fullShare} (dats m 0 c).arrAt 4 n)) := by
  rw [arrays_open]
  exact sep_congr (congrArg _ (arrAt_in' m c 0 rfl n)) (sep_congr (congrArg _ (arrAt_in' m c 1 rfl n)) (sep_congr (congrArg _ (arrAt_in' m c 2 rfl n))
    (sep_congr (congrArg _ (arrAt_in' m c 3 rfl n)) rfl)))

/-- The halves of the two shared arrays joined, and split again. -/
theorem arrays_join (c : Dev nD) (n : Nat) :
    ((dats m 0 c).arrays ((dats m 0 c).arrAt · n) : sProp 𝕄)
      ⊢ iprop((((c.tc : Thread nD τ).loc main_arg0) ↦{fullShare} V m c main_arg0) ∗ (((c.tc : Thread nD τ).loc main_arg1) ↦{fullShare} V m c main_arg1)
          ∗ (((c.tc : Thread nD τ).loc main_v0) ↦{fullShare} (dats m 0 c).arrAt 4 n)) := by
  rw [arrays_at]
  iintro ⟨H0, H1, H2, H3, H4⟩
  isplitl [H0 H2]
  · iapply (pointsTo_share (PosShare.mem_left_op_right fullShare)).2; isplitl [H0]; · iexact H0
    iexact H2
  isplitl [H1 H3]
  · iapply (pointsTo_share (PosShare.mem_left_op_right fullShare)).2; isplitl [H1]; · iexact H1
    iexact H3
  iexact H4

theorem arrays_split' (c : Dev nD) (n : Nat) :
    iprop((((c.tc : Thread nD τ).loc main_arg0) ↦{fullShare} V m c main_arg0) ∗ (((c.tc : Thread nD τ).loc main_arg1) ↦{fullShare} V m c main_arg1)
          ∗ (((c.tc : Thread nD τ).loc main_v0) ↦{fullShare} (dats m 0 c).arrAt 4 n))
      ⊢ ((dats m 0 c).arrays ((dats m 0 c).arrAt · n) : sProp 𝕄) := by
  rw [arrays_at]
  iintro ⟨H0, H1, H4⟩
  ihave H0' := (pointsTo_share (PosShare.mem_left_op_right fullShare)).1 $$ H0
  icases H0' with ⟨H0, H2⟩
  ihave H1' := (pointsTo_share (PosShare.mem_left_op_right fullShare)).1 $$ H1
  icases H1' with ⟨H1, H3⟩
  isplitl [H0]; · iexact H0
  isplitl [H1]; · iexact H1
  isplitl [H2]; · iexact H2
  isplitl [H3]; · iexact H3
  iexact H4

end Cert.KernelIdeal.Hand

end
-- ==== Proof.Tail.lean ====
/-
  The host lines after the region — the two triangular masks, the transpose and the sum — touch the output array and
  buffers of their own only: they write no window's array and read no table, so they run from the region's exit
  contents within the windows' arrays and the buffers that bypass the region.
-/
import proofs.«143452_j12326556139626_2_alg».proof.Proof.Arrays

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-- The buffers the lines after the region may touch, held at `W`: the distinct buffers behind the windows and the buffers
    that bypass the region. -/
theorem held_tail (c : Dev nD) (W : Valuation τ sig (Elt F)) :
    (StableHlo.held (c.tc : Thread nD τ) (tailRefs sig pre0 spec0) W : sProp 𝕄)
      = iprop(arrBufs spec0 c (fun b => W (Proc.devRef .tc b)) ∗ unscopedRestP pre0 spec0 c (fun b => W (Proc.devRef .tc b))) := by
  classical
  have hdisj : Disjoint (Finset.univ.image (arrRef spec0)) (restRefsP sig pre0 spec0) :=
    Finset.disjoint_left.mpr fun b hb hr => (Finset.mem_sdiff.mp (Finset.mem_sdiff.mp hr).1).2 hb
  unfold StableHlo.held tailRefs arrBufs unscopedRestP
  rw [bigSep_map, bigSep_union hdisj]
  rfl

/-- The region-entry contents as a valuation, and the region's exit contents: the output array at what the grid points
    wrote back, every other buffer as the region found it. -/
abbrev V0 (c : Dev nD) : Valuation τ sig (Elt F) := StableHlo.after ([hostOps0 (F := F)] : List (List (HloOp τ sig (Elt F)))).flatten (fun b => m (c, b))

def exitVal (c : Dev nD) : Valuation τ sig (Elt F) := by
  classical exact Function.update (V0 m c) (Proc.devRef .tc main_v0) ((dats m 0 c).arrAt 4 (cfgM (F := F)).N)

theorem exitVal_v0 (c : Dev nD) : exitVal m c (Proc.devRef .tc main_v0) = (dats m 0 c).arrAt 4 (cfgM (F := F)).N := by
  unfold exitVal; exact Function.update_self ..

theorem exitVal_of_ne (c : Dev nD) (b : Ref sig .tc) (hb : b ≠ main_v0) : exitVal m c (Proc.devRef .tc b) = V m c b := by
  unfold exitVal; exact Function.update_of_ne (StableHlo.devRef_ne_of_ne hb) ..

theorem tail_fresh : ∀ ops ∈ (tailOps (F := F)), ∀ op ∈ ops, op.fresh = ∅ := by
  have h1 : (hostOps1 : List (HloOp τ sig (Elt F))).Forall fun op => op.fresh = ∅ := by simp only [List.Forall]; repeat' constructor
  have h2 : (hostOps1_1 : List (HloOp τ sig (Elt F))).Forall fun op => op.fresh = ∅ := by simp only [List.Forall]; repeat' constructor
  have h3 : (hostOps1_2 : List (HloOp τ sig (Elt F))).Forall fun op => op.fresh = ∅ := by simp only [List.Forall]; repeat' constructor
  intro ops hops op hop
  simp only [tailOps, List.mem_cons, List.mem_nil_iff, _root_.or_false] at hops
  rcases hops with rfl | rfl | rfl
  · exact (List.forall_iff_forall_mem.mp h1) op hop
  · exact (List.forall_iff_forall_mem.mp h2) op hop
  · exact (List.forall_iff_forall_mem.mp h3) op hop

/-- The lines after the region write only their own results: no window's array, and they read no table. -/
theorem tail_writes : ∀ ops ∈ (tailOps (F := F)), ∀ op ∈ ops, ∀ b : Ref sig .tc,
    b ∈ ([main_arg0, main_arg1, main_v0, main_c, main_c_0] : List (Ref sig .tc)) → Proc.devRef (τ := τ) .tc b ∉ op.writes := by
  intro ops hops op hop b hb
  simp only [tailOps, List.mem_cons, List.mem_nil_iff, _root_.or_false] at hops
  simp only [List.mem_cons, List.mem_nil_iff, _root_.or_false] at hb
  rcases hops with rfl | rfl | rfl
  · simp only [hostOps1, List.mem_cons, List.mem_nil_iff, _root_.or_false] at hop
    rcases hop with rfl | rfl | rfl | rfl | rfl | rfl | rfl | rfl | rfl
    all_goals rcases hb with rfl | rfl | rfl | rfl | rfl <;> simp only [StableHlo.nullary_writes, StableHlo.unary_writes, StableHlo.binary_writes, StableHlo.ternary_writes, Finset.mem_singleton] <;> exact StableHlo.devRef_ne_of_ne (by decide)
  · simp only [hostOps1_1, List.mem_cons, List.mem_nil_iff, _root_.or_false] at hop
    rcases hop with rfl | rfl | rfl | rfl | rfl | rfl | rfl | rfl | rfl
    all_goals rcases hb with rfl | rfl | rfl | rfl | rfl <;> simp only [StableHlo.nullary_writes, StableHlo.unary_writes, StableHlo.binary_writes, StableHlo.ternary_writes, Finset.mem_singleton] <;> exact StableHlo.devRef_ne_of_ne (by decide)
  · simp only [hostOps1_2, List.mem_cons, List.mem_nil_iff, _root_.or_false] at hop
    rcases hop with rfl | rfl
    all_goals rcases hb with rfl | rfl | rfl | rfl | rfl <;> simp only [StableHlo.nullary_writes, StableHlo.unary_writes, StableHlo.binary_writes, StableHlo.ternary_writes, Finset.mem_singleton] <;> exact StableHlo.devRef_ne_of_ne (by decide)

theorem tail_no_table : ∀ ops ∈ (tailOps (F := F)), ∀ op ∈ ops, ∀ k, Proc.devRef (τ := τ) .tc (pre0.ref k) ∉ op.bufs := by
  intro ops hops op hop k
  simp only [tailOps, List.mem_cons, List.mem_nil_iff, _root_.or_false] at hops
  rcases hops with rfl | rfl | rfl
  · simp only [hostOps1, List.mem_cons, List.mem_nil_iff, _root_.or_false] at hop
    rcases hop with rfl | rfl | rfl | rfl | rfl | rfl | rfl | rfl | rfl
    all_goals (fin_cases k <;> simp only [StableHlo.nullary_bufs, StableHlo.unary_bufs, StableHlo.binary_bufs, StableHlo.ternary_bufs, Finset.mem_insert, Finset.mem_singleton, not_or] <;> (repeat' constructor) <;> exact StableHlo.devRef_ne_of_ne (by decide))
  · simp only [hostOps1_1, List.mem_cons, List.mem_nil_iff, _root_.or_false] at hop
    rcases hop with rfl | rfl | rfl | rfl | rfl | rfl | rfl | rfl | rfl
    all_goals (fin_cases k <;> simp only [StableHlo.nullary_bufs, StableHlo.unary_bufs, StableHlo.binary_bufs, StableHlo.ternary_bufs, Finset.mem_insert, Finset.mem_singleton, not_or] <;> (repeat' constructor) <;> exact StableHlo.devRef_ne_of_ne (by decide))
  · simp only [hostOps1_2, List.mem_cons, List.mem_nil_iff, _root_.or_false] at hop
    rcases hop with rfl | rfl
    all_goals (fin_cases k <;> simp only [StableHlo.nullary_bufs, StableHlo.unary_bufs, StableHlo.binary_bufs, StableHlo.ternary_bufs, Finset.mem_insert, Finset.mem_singleton, not_or] <;> (repeat' constructor) <;> exact StableHlo.devRef_ne_of_ne (by decide))

theorem tail_sub : ∀ ops ∈ (tailOps (F := F)), ∀ op ∈ ops, op.bufs ⊆ tailRefs sig pre0 spec0 := by
  intro ops hops op hop
  refine sub_tailRefs pre0 spec0 op ?_ (tail_no_table ops hops op hop)
  simp only [tailOps, List.mem_cons, List.mem_nil_iff, _root_.or_false] at hops
  rcases hops with rfl | rfl | rfl
  · exact (List.forall_iff_forall_mem.mp hostOps1_sub) op hop
  · exact (List.forall_iff_forall_mem.mp hostOps1_1_sub) op hop
  · exact (List.forall_iff_forall_mem.mp hostOps1_2_sub) op hop

end Cert.KernelIdeal.Hand

end
-- ==== Proof.Run.lean ====
/-
  The launch and the run. The region is entered with the two shared argument arrays dealt to their windows in halves;
  at its exit the halves are joined, the host lines after the region run from the exit contents — the output array at
  what the grid points wrote back, every other buffer as the region found it — and the arrays are dealt again for the
  final reading. The run ends with the result at those lines' value and the two argument arrays unchanged.
-/
import proofs.«143452_j12326556139626_2_alg».proof.Proof.Tail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-- A bypassing buffer is not the output array. -/
theorem ne_v0_of_rest {b : Ref sig .tc} (hb : b ∈ restRefsP sig pre0 spec0) : b ≠ main_v0 := fun e =>
  (Finset.mem_sdiff.mp (Finset.mem_sdiff.mp hb).1).2 (e ▸ (by decide : main_v0 ∈ Finset.univ.image (arrRef spec0)))

theorem rest_exit (c : Dev nD) :
    (unscopedRestP pre0 spec0 c (fun b => exitVal m c (Proc.devRef .tc b)) : sProp 𝕄) = unscopedRestP pre0 spec0 c (V m c) := by
  unfold unscopedRestP
  exact bigSep_congr fun b hb => congrArg (fun X => (((c.tc : Thread nD τ).loc b) ↦{fullShare} X : sProp 𝕄)) (exitVal_of_ne m c b (ne_v0_of_rest hb))

/-- The lines after the region leave the windows' arrays as the region left them. -/
theorem after_keep (c : Dev nD) (b : Ref sig .tc) (hb : b ∈ ([main_arg0, main_arg1, main_v0, main_c, main_c_0] : List (Ref sig .tc))) :
    StableHlo.after (tailOps (F := F)).flatten (exitVal m c) (Proc.devRef .tc b) = exitVal m c (Proc.devRef .tc b) :=
  StableHlo.after_of_forall_not_mem _ _ fun op hop => by
    obtain ⟨ops, hops, hop⟩ := List.mem_flatten.mp hop
    exact tail_writes ops hops op hop b hb

theorem held_exit (c : Dev nD) :
    (StableHlo.held (c.tc : Thread nD τ) (tailRefs sig pre0 spec0) (exitVal m c) : sProp 𝕄)
      = iprop(((((c.tc : Thread nD τ).loc main_arg0) ↦{fullShare} V m c main_arg0) ∗ (((c.tc : Thread nD τ).loc main_arg1) ↦{fullShare} V m c main_arg1)
          ∗ (((c.tc : Thread nD τ).loc main_v0) ↦{fullShare} (dats m 0 c).arrAt 4 (cfgM (F := F)).N)) ∗ unscopedRestP pre0 spec0 c (V m c)) := by
  rw [held_tail, arrBufs_eq, rest_exit, exitVal_of_ne m c main_arg0 (by decide), exitVal_of_ne m c main_arg1 (by decide), exitVal_v0]

theorem held_after (c : Dev nD) :
    (StableHlo.held (c.tc : Thread nD τ) (tailRefs sig pre0 spec0) (StableHlo.after (tailOps (F := F)).flatten (exitVal m c)) : sProp 𝕄)
      = iprop(((((c.tc : Thread nD τ).loc main_arg0) ↦{fullShare} V m c main_arg0) ∗ (((c.tc : Thread nD τ).loc main_arg1) ↦{fullShare} V m c main_arg1)
          ∗ (((c.tc : Thread nD τ).loc main_v0) ↦{fullShare} (dats m 0 c).arrAt 4 (cfgM (F := F)).N))
          ∗ unscopedRestP pre0 spec0 c (fun b => StableHlo.after (tailOps (F := F)).flatten (exitVal m c) (Proc.devRef .tc b))) := by
  rw [held_tail, arrBufs_eq, after_keep m c main_arg0 (by simp), after_keep m c main_arg1 (by simp), after_keep m c main_v0 (by simp),
    exitVal_of_ne m c main_arg0 (by decide), exitVal_of_ne m c main_arg1 (by decide), exitVal_v0]

set_option backward.isDefEq.respectTransparency.types false in
/-- The lines after the region, from the region's exit: the arrays rejoined, the lines run, the arrays dealt again. -/
theorem htail (c : Dev nD) (Q' : PUnit → sProp 𝕄) :
    iprop((iprop((dats m 0 c).arrays ((dats m 0 c).arrAt · (cfgM (F := F)).N)
              ∗ unscopedRestP pre0 spec0 c (fun b => StableHlo.after (tailOps (F := F)).flatten (exitVal m c) (Proc.devRef .tc b))) -∗ Q' ⟨⟩)
        ∗ boundary (c.tc : Thread nD τ) ∗ (dats m 0 c).arrays ((dats m 0 c).arrAt · (cfgM (F := F)).N) ∗ unscopedRestP pre0 spec0 c (V m c))
      ⊢ wp frame (wpE (defs (F := F)) (Variants.lift Variants.none) (c.tc : Thread nD τ) none) Set.univ (chain ((tailOps (F := F)).map StableHlo.seq)) Q' := by
  rw [← List.append_nil ((tailOps (F := F)).map StableHlo.seq)]
  iintro ⟨Hk, Hb, Ha, HZ⟩
  ihave Ha' := (arrays_join m c (cfgM (F := F)).N) $$ Ha
  iapply (wp_seqs_then pcfgs defs₀ Variants.none c (tailRefs sig pre0 spec0) [] (tailOps (F := F)) tail_sub tail_fresh (exitVal m c)) $$ [Hb Ha' HZ]
  · isplitl [Hb]; · iexact Hb
    rw [held_exit]
    isplitl [Ha']; · iexact Ha'
    iexact HZ
  iintro Hb
  rw [chain_nil, wp_pure, held_after]
  imodintro
  iapply Hk
  icases Hb with ⟨-, Ha, HZ⟩
  isplitl [Ha]; · iapply (arrays_split' m c (cfgM (F := F)).N); iexact Ha
  iexact HZ

/-- The host lines before the region leave the two argument arrays as launched. -/
theorem V_arg0 (c : Dev nD) : V m c main_arg0 = m ((c : Thread nD τ).loc main_arg0) := by
  show StableHlo.after (hostOps0 (F := F)) (fun b => m (c, b)) (Proc.devRef .tc main_arg0) = _
  after_results
theorem V_arg1 (c : Dev nD) : V m c main_arg1 = m ((c : Thread nD τ).loc main_arg1) := by
  show StableHlo.after (hostOps0 (F := F)) (fun b => m (c, b)) (Proc.devRef .tc main_arg1) = _
  after_results

set_option backward.isDefEq.respectTransparency.types false in
/-- THE RUN: from any memory with zero counters every weakly fair execution of @main terminates, the result at the value
    the lines after the region compute from the region's exit contents, the two argument arrays unchanged. -/
theorem run_main : θ_run (defs (F := F)) (onTc (τ := τ) (main (F := F))) ⟨m, fun _ => 0, ρ⟩ (fun r => ∀ c : Dev nD,
      r.2.mem ((c.tc : Thread nD τ).loc main_v4) = StableHlo.after (tailOps (F := F)).flatten (exitVal m c) (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact θ_run_region_pf_tail pcfgs (fun _ => adm (F := F)) (dats m) () (cellOf_inj (fun _ => adm (F := F))) (0 : Fin 1) winFacts₀0
    (OwnSemFacts.none spec0) preFacts0 emb₁ defs₀ Variants.none m ρ main
    (fun _ => chain ((tailOps (F := F)).map StableHlo.seq)) (fun c => (body_obligation m c).loose)
    block_pos0 arr_whole0 stage_whole0 (fun _ _ => rfl)
    (G := fun _ => iprop(emp)) (u₀ := initOf (cells (pin pcfgs fun _ => adm (F := F)) (cellOf_inj fun _ => adm (F := F))) (launchToks (pin pcfgs fun _ => adm (F := F)) (cellOf_inj fun _ => adm (F := F))))
    (hu₀ := by
      iintro Hu; imodintro
      isplitl [Hu]; · iapply (show (ownU _ : sProp 𝕄) ⊢ BI.own (emb₁ (initOf (cells (pin pcfgs fun _ => adm (F := F)) (cellOf_inj fun _ => adm (F := F))) (launchToks (pin pcfgs fun _ => adm (F := F)) (cellOf_inj fun _ => adm (F := F))))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by rw [arrBufs_eq]; exact arrays_split' m c 0)
    (hpf := V_pre m)
    (X := fun c => iprop(∃ r, prngReg c r)) (Y := fun c => iprop(∃ r, prngReg c r))
    (Z := fun c => unscopedRestP (Ix := Unit) (Name := ℕ) (U := UR sig nD τ) (Lvl := ℕ) pre0 spec0 c (V m c))
    (Z' := fun c => unscopedRestP (Ix := Unit) (Name := ℕ) (U := UR sig nD τ) (Lvl := ℕ) pre0 spec0 c
      (fun b => StableHlo.after (tailOps (F := F)).flatten (exitVal m c) (Proc.devRef .tc b)))
    (hX := fun c => by
      iintro ⟨HU, -, -, -, Hp, -⟩; imodintro
      isplitl [Hp]; · iexists _; iexact Hp
      iexact HU)
    (hin := fun c => (show _ ⊢ iprop(ΦA spec0 c ∗ ΦT pre0 (tbl (F := F)) c) by
      unfold ΦA ΦT; iintro ⟨Hp, Ht, Hr⟩
      isplitr [Ht]
      · isplitl [Hr] <;> iassumption
      · iexact Ht))
    (hout := fun c => (show (dats m 0 c).Φ (Fin.last (cfgM (F := F)).N) ⊢ ΦA spec0 c by
      show iprop(ΦA spec0 c ∗ ΦT pre0 (tbl (F := F)) c) ⊢ ΦA spec0 c
      iintro ⟨H, -⟩; iexact H).trans (by
      rw [ownSems0_none]; unfold ΦA
      iintro ⟨Hr, Hp⟩
      isplitl [Hp]; · iexact Hp
      isplitr; · iempintro
      iexact Hr))
    (htail := fun c Q' => htail m c Q')
    (QY := fun c s => ∀ b ∈ restRefsP sig pre0 spec0, s.mem ((c.tc : Thread nD τ).loc b)
      = StableHlo.after (tailOps (F := F)).flatten (exitVal m c) (Proc.devRef .tc b))
    (hY := fun c s' => by
      iintro ⟨-, HU, HSI⟩
      unfold unscopedRestP
      imodintro
      iapply (pointsTo_read_all (restRefsP sig pre0 spec0) (fun b => (c.tc : Thread nD τ).loc b)
        (fun b => StableHlo.after (tailOps (F := F)).flatten (exitVal m c) (Proc.devRef .tc b)) s')
      isplitl [HU] <;> iassumption)
    (hQ := fun s h c => ⟨(h c).2.2 main_v4 (by decide),
      ((h c).1 0).trans ((arrAt_in' m c 0 rfl _).trans (V_arg0 m c)),
      ((h c).1 1).trans ((arrAt_in' m c 1 rfl _).trans (V_arg1 m c))⟩)

end Cert.KernelIdeal.Hand

end
-- ==== Proof.Spec.lean ====
/-
  The mathematics both programs compute, on the extended reals. Row r of the first array, divided by the larger of its
  Euclidean norm and a small constant, is the normalised mean; the exponential of the second array is the variance.
  The score of a pair (i, j) is minus the sum over the 256 features of: the squared difference of the two normalised
  means over the (shifted) sum of the two variances, plus the logarithm of that sum. The kernel takes the sum in two
  halves of 128 features from a zero accumulator and negates by subtracting from zero; it computes only i ≤ j by tiles
  and uses the symmetry of the score in (i, j) for the rest. Sums on the extended reals are commutative and
  associative, so splitting the sum needs no finiteness; the symmetry holds at the infinities too, case by case.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The three literals, as extended reals. -/
abbrev eNorm : EReal := Ideal.ofBits .f32 0x2B8CBCCC#32
abbrev eVar : EReal := Ideal.ofBits .f32 0x2EDBE6FF#32
abbrev zeroW : EReal := Ideal.ofBits .f32 0x00000000#32

theorem zeroW_eq : zeroW = 0 := Ideal.ofBits_zero_f32

/-- One pairwise term: squared difference of the means over the shifted sum of the variances, plus its logarithm. -/
def term (a b s t : EReal) : EReal := Ideal.div ((a - b) * (a - b)) (eVar + (s + t)) + Ideal.log (s + t)

/-- The lower and the upper half of the feature axis. -/
abbrev lo (d : Fin 128) : Fin 256 := ⟨d.val, by omega⟩
abbrev hi (d : Fin 128) : Fin 256 := ⟨128 + d.val, by omega⟩

/-- Row `a` of an array of rows of 256 features, normalised (the sum of squares from no accumulator, as a lane sum
    takes it, or from a zero one, as the host's sum does), and its variances. -/
def rowMu {n : Nat} (x : (⟨2, ![n, 256]⟩ : Shape).Idx → EReal) (a : Fin n) (d : Fin 256) : EReal :=
  Ideal.div (x (ix2 a d)) (max (Ideal.sqrt (∑ k : Fin 256, x (ix2 a k) * x (ix2 a k))) eNorm)
def rowMuH {n : Nat} (x : (⟨2, ![n, 256]⟩ : Shape).Idx → EReal) (a : Fin n) (d : Fin 256) : EReal :=
  Ideal.div (x (ix2 a d)) (max (Ideal.sqrt (zeroW + ∑ k : Fin 256, x (ix2 a k) * x (ix2 a k))) eNorm)
def rowSg {n : Nat} (y : (⟨2, ![n, 256]⟩ : Shape).Idx → EReal) (a : Fin n) (d : Fin 256) : EReal := Ideal.exp (y (ix2 a d))

theorem rowMuH_eq {n : Nat} (x : (⟨2, ![n, 256]⟩ : Shape).Idx → EReal) (a : Fin n) (d : Fin 256) : rowMuH x a d = rowMu x a d := by
  unfold rowMuH rowMu; rw [zeroW_eq, zero_add]

/-- The score as the kernel takes it: from rows `P` of one pair of arrays and `q` of another. -/
def pairVal {n : Nat} (x0 x1 x2 x3 : (⟨2, ![n, 256]⟩ : Shape).Idx → EReal) (P q : Fin n) : EReal :=
  zeroW - ((zeroW + ∑ d : Fin 128, term (rowMu x0 P (lo d)) (rowMu x2 q (lo d)) (rowSg x1 P (lo d)) (rowSg x3 q (lo d)))
      + ∑ d : Fin 128, term (rowMu x0 P (hi d)) (rowMu x2 q (hi d)) (rowSg x1 P (hi d)) (rowSg x3 q (hi d)))

/-- The kernel's score depends on its four arrays only through the two rows it reads. -/
theorem pairVal_congr {n n' : Nat} (x0 x1 x2 x3 : (⟨2, ![n, 256]⟩ : Shape).Idx → EReal) (y0 y1 y2 y3 : (⟨2, ![n', 256]⟩ : Shape).Idx → EReal)
    (P q : Fin n) (P' q' : Fin n') (h0 : ∀ d, x0 (ix2 P d) = y0 (ix2 P' d)) (h1 : ∀ d, x1 (ix2 P d) = y1 (ix2 P' d))
    (h2 : ∀ d, x2 (ix2 q d) = y2 (ix2 q' d)) (h3 : ∀ d, x3 (ix2 q d) = y3 (ix2 q' d)) :
    pairVal x0 x1 x2 x3 P q = pairVal y0 y1 y2 y3 P' q' := by
  unfold pairVal rowMu rowSg
  simp only [h0, h1, h2, h3]

/-- The score as the reference takes it. -/
def refVal {n : Nat} (x y : (⟨2, ![n, 256]⟩ : Shape).Idx → EReal) (i j : Fin n) : EReal :=
  -(zeroW + ∑ k : Fin 256, term (rowMuH x i k) (rowMuH x j k) (rowSg y i k) (rowSg y j k))

/-- A sum over 256 features is the sum over the lower half plus the sum over the upper half. -/
theorem sum_halves (f : Fin 256 → EReal) : ∑ k : Fin 256, f k = ∑ d : Fin 128, f (lo d) + ∑ d : Fin 128, f (hi d) :=
  Fin.sum_univ_add (a := 128) (b := 128) (fun k : Fin (128 + 128) => f k)

/-- The squared difference is symmetric, at the infinities too. -/
theorem sq_sub_comm (a b : EReal) : (a - b) * (a - b) = (b - a) * (b - a) := by
  induction a using EReal.rec with
  | bot =>
    induction b using EReal.rec with
    | bot => rfl
    | coe y => simp [EReal.bot_sub, EReal.coe_sub_bot]
    | top => simp [EReal.bot_sub, EReal.top_sub_bot]
  | coe x =>
    induction b using EReal.rec with
    | bot => simp [EReal.bot_sub, EReal.coe_sub_bot]
    | coe y =>
      rw [← EReal.coe_sub, ← EReal.coe_sub, ← EReal.coe_mul, ← EReal.coe_mul]
      exact congrArg _ (by ring)
    | top => simp [EReal.sub_top, EReal.top_sub_coe]
  | top =>
    induction b using EReal.rec with
    | bot => simp [EReal.bot_sub, EReal.top_sub_bot]
    | coe y => simp [EReal.sub_top, EReal.top_sub_coe]
    | top => rfl

theorem term_comm (a b s t : EReal) : term a b s t = term b a t s := by
  unfold term; rw [sq_sub_comm a b, add_comm s t]

theorem refVal_comm {n : Nat} (x y : (⟨2, ![n, 256]⟩ : Shape).Idx → EReal) (i j : Fin n) : refVal x y i j = refVal x y j i := by
  unfold refVal
  exact congrArg (fun z => -(zeroW + z)) (Finset.sum_congr rfl fun k _ => term_comm _ _ _ _)

/-- The kernel's two half sums from zero, subtracted from zero, are the reference's negated sum. -/
theorem pairVal_eq_refVal {n : Nat} (x y : (⟨2, ![n, 256]⟩ : Shape).Idx → EReal) (i j : Fin n) :
    pairVal x y x y i j = refVal x y i j := by
  unfold pairVal refVal
  simp only [rowMuH_eq]
  rw [sum_halves (fun k => term (rowMu x i k) (rowMu x j k) (rowSg y i k) (rowSg y j k)), zeroW_eq, zero_sub, zero_add, zero_add]

end Cert.Spec

end
-- ==== Proof.KOps.lean ====
/-
  The kernel's vector operations read at an index, at exact arithmetic. A 32-row slab of the first pair of blocks is
  laid along a new middle axis and all 128 rows of the second pair along a new leading axis, so the entry (p, q, d) of
  the three-axis term is the pairwise term of row p of the slab and row q of the second block at feature d; the lane
  sum over d, taken over both halves of the feature axis and negated, is one band entry. The normalised mean of a block
  is each entry divided by the larger of its row's Euclidean norm and the small constant.
-/
import proofs.«143452_j12326556139626_2_alg».proof.Proof.Body
import proofs.«143452_j12326556139626_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.ValueIdx Cert.Spec

/-- A [32,128] slab laid along a new middle axis and spread over it reads, at (p, q, d), the slab at (p, d). -/
theorem spreadRows_apply (a : FVec Ideal S32x128 .f32) (h1 : S32x128.ShapeCasts S32x1x128) (h2 : S32x1x128.Broadcasts S32x128x128)
    (p : Fin 32) (q d : Fin 128) : broadcastTo S32x128x128 (shapeCast S32x1x128 a h1) h2 (ix3 p q d) = a (ix2 p d) := by
  refine (broadcastTo_apply _ h2 (ix3 p q d) (ix3 p (0 : Fin 1) d) (fun ax => by
    match ax with | ⟨0, _⟩ => rfl | ⟨1, _⟩ => rfl | ⟨2, _⟩ => rfl)).trans ?_
  refine shapeCast_apply a h1 (ix3 p (0 : Fin 1) d) (ix2 p d) ?_
  rw [Shape.rowMajor_val_three, Shape.rowMajor_val_two]
  show p.val * 128 + d.val = (p.val * 1 + 0) * 128 + d.val
  omega

/-- A [128,128] block laid along a new leading axis and spread over it reads, at (p, q, d), the block at (q, d). -/
theorem spreadCols_apply (b : FVec Ideal S128x128 .f32) (h1 : S128x128.ShapeCasts S1x128x128) (h2 : S1x128x128.Broadcasts S32x128x128)
    (p : Fin 32) (q d : Fin 128) : broadcastTo S32x128x128 (shapeCast S1x128x128 b h1) h2 (ix3 p q d) = b (ix2 q d) := by
  refine (broadcastTo_apply _ h2 (ix3 p q d) (ix3 (0 : Fin 1) q d) (fun ax => by
    match ax with | ⟨0, _⟩ => rfl | ⟨1, _⟩ => rfl | ⟨2, _⟩ => rfl)).trans ?_
  exact shapeCast_ab_1ab_apply b h1 (0 : Fin 1) q d

/-- The three-axis term of a slab pair against a block pair, as the kernel computes it. -/
abbrev chunk (mi si : FVec Ideal S32x128 .f32) (mj sj : FVec Ideal S128x128 .f32)
    (h1 : S32x128.ShapeCasts S32x1x128) (h2 : S32x1x128.Broadcasts S32x128x128)
    (h3 : S128x128.ShapeCasts S1x128x128) (h4 : S1x128x128.Broadcasts S32x128x128) : FVec Ideal S32x128x128 .f32 :=
  addf (divf (mulf (subf (broadcastTo S32x128x128 (shapeCast S32x1x128 mi h1) h2) (broadcastTo S32x128x128 (shapeCast S1x128x128 mj h3) h4))
                   (subf (broadcastTo S32x128x128 (shapeCast S32x1x128 mi h1) h2) (broadcastTo S32x128x128 (shapeCast S1x128x128 mj h3) h4)))
             (addf (broadcast S32x128x128 (Scalar.ofBits .f32 0x2EDBE6FF#32))
                   (addf (broadcastTo S32x128x128 (shapeCast S32x1x128 si h1) h2) (broadcastTo S32x128x128 (shapeCast S1x128x128 sj h3) h4))))
       (log (addf (broadcastTo S32x128x128 (shapeCast S32x1x128 si h1) h2) (broadcastTo S32x128x128 (shapeCast S1x128x128 sj h3) h4)))

theorem chunk_apply (mi si : FVec Ideal S32x128 .f32) (mj sj : FVec Ideal S128x128 .f32)
    (h1 : S32x128.ShapeCasts S32x1x128) (h2 : S32x1x128.Broadcasts S32x128x128)
    (h3 : S128x128.ShapeCasts S1x128x128) (h4 : S1x128x128.Broadcasts S32x128x128) (p : Fin 32) (q d : Fin 128) :
    chunk mi si mj sj h1 h2 h3 h4 (ix3 p q d) = term (mi (ix2 p d)) (mj (ix2 q d)) (si (ix2 p d)) (sj (ix2 q d)) := by
  show Ideal.div ((broadcastTo S32x128x128 (shapeCast S32x1x128 mi h1) h2 (ix3 p q d) - broadcastTo S32x128x128 (shapeCast S1x128x128 mj h3) h4 (ix3 p q d))
        * (broadcastTo S32x128x128 (shapeCast S32x1x128 mi h1) h2 (ix3 p q d) - broadcastTo S32x128x128 (shapeCast S1x128x128 mj h3) h4 (ix3 p q d)))
      (eVar + (broadcastTo S32x128x128 (shapeCast S32x1x128 si h1) h2 (ix3 p q d) + broadcastTo S32x128x128 (shapeCast S1x128x128 sj h3) h4 (ix3 p q d)))
    + Ideal.log (broadcastTo S32x128x128 (shapeCast S32x1x128 si h1) h2 (ix3 p q d) + broadcastTo S32x128x128 (shapeCast S1x128x128 sj h3) h4 (ix3 p q d)) = _
  rw [spreadRows_apply mi h1 h2 p q d, spreadCols_apply mj h3 h4 p q d, spreadRows_apply si h1 h2 p q d, spreadCols_apply sj h3 h4 p q d]
  rfl

/-- The lane sum of a three-axis value, at (p, q): the sum over the last axis. -/
theorem laneSum_apply (T : FVec Ideal S32x128x128 .f32) (h : S32x128x128.Reduces [2] S32x128) (hφ : FKind.Formats .f32)
    (hacc : (0x00000000#32 : BitVec 32) = FKind.add.neutral .f32 hφ) (p : Fin 32) (q : Fin 128) :
    multiReduction .add [2] S32x128 T 0x00000000#32 h hφ hacc (ix2 p q) = ∑ d : Fin 128, T (ix3 p q d) := by
  refine (Ideal.multiReduction_add_single T 0x00000000#32 h hφ hacc (ix2 p q)).trans ?_
  refine Finset.sum_congr rfl fun d _ => congrArg T (funext fun ax => Fin.ext ?_)
  match ax with | ⟨0, _⟩ => rfl | ⟨1, _⟩ => rfl | ⟨2, _⟩ => rfl

/-- A band as the kernel computes it from a 32-row slab pair and a block pair: zero less the two half sums. -/
abbrev band (vI sI : FVec Ideal S32x256 .f32) (vJ sJ : FVec Ideal S128x256 .f32)
    (g1 : S32x256.Slices ![0, 0] S32x128) (g2 : S128x256.Slices ![0, 0] S128x128)
    (g3 : S32x256.Slices ![0, 128] S32x128) (g4 : S128x256.Slices ![0, 128] S128x128)
    (h1 : S32x128.ShapeCasts S32x1x128) (h2 : S32x1x128.Broadcasts S32x128x128)
    (h3 : S128x128.ShapeCasts S1x128x128) (h4 : S1x128x128.Broadcasts S32x128x128)
    (h : S32x128x128.Reduces [2] S32x128) (hφ : FKind.Formats .f32) (hacc : (0x00000000#32 : BitVec 32) = FKind.add.neutral .f32 hφ) :
    FVec Ideal S32x128 .f32 :=
  subf (broadcast S32x128 (Scalar.ofBits .f32 0x00000000#32))
    (addf (addf (broadcast S32x128 (Scalar.ofBits .f32 0x00000000#32))
        (multiReduction .add [2] S32x128 (chunk (extractStridedSlice S32x128 ![0, 0] vI g1) (extractStridedSlice S32x128 ![0, 0] sI g1)
          (extractStridedSlice S128x128 ![0, 0] vJ g2) (extractStridedSlice S128x128 ![0, 0] sJ g2) h1 h2 h3 h4) 0x00000000#32 h hφ hacc))
      (multiReduction .add [2] S32x128 (chunk (extractStridedSlice S32x128 ![0, 128] vI g3) (extractStridedSlice S32x128 ![0, 128] sI g3)
          (extractStridedSlice S128x128 ![0, 128] vJ g4) (extractStridedSlice S128x128 ![0, 128] sJ g4) h1 h2 h3 h4) 0x00000000#32 h hφ hacc))

theorem band_apply (vI sI : FVec Ideal S32x256 .f32) (vJ sJ : FVec Ideal S128x256 .f32)
    (g1 : S32x256.Slices ![0, 0] S32x128) (g2 : S128x256.Slices ![0, 0] S128x128)
    (g3 : S32x256.Slices ![0, 128] S32x128) (g4 : S128x256.Slices ![0, 128] S128x128)
    (h1 : S32x128.ShapeCasts S32x1x128) (h2 : S32x1x128.Broadcasts S32x128x128)
    (h3 : S128x128.ShapeCasts S1x128x128) (h4 : S1x128x128.Broadcasts S32x128x128)
    (h : S32x128x128.Reduces [2] S32x128) (hφ : FKind.Formats .f32) (hacc : (0x00000000#32 : BitVec 32) = FKind.add.neutral .f32 hφ)
    (p : Fin 32) (q : Fin 128) :
    band vI sI vJ sJ g1 g2 g3 g4 h1 h2 h3 h4 h hφ hacc (ix2 p q)
      = zeroW - ((zeroW + ∑ d : Fin 128, term (vI (ix2 p (lo d))) (vJ (ix2 q (lo d))) (sI (ix2 p (lo d))) (sJ (ix2 q (lo d))))
          + ∑ d : Fin 128, term (vI (ix2 p (hi d))) (vJ (ix2 q (hi d))) (sI (ix2 p (hi d))) (sJ (ix2 q (hi d)))) := by
  show zeroW - ((zeroW + multiReduction (F := Ideal) .add [2] S32x128 _ 0x00000000#32 h hφ hacc (ix2 p q))
      + multiReduction (F := Ideal) .add [2] S32x128 _ 0x00000000#32 h hφ hacc (ix2 p q)) = _
  rw [laneSum_apply, laneSum_apply]
  refine congrArg (zeroW - ·) (congr (congrArg HAdd.hAdd (congrArg (zeroW + ·) (Finset.sum_congr rfl fun d _ => ?_))) (Finset.sum_congr rfl fun d _ => ?_))
  · rw [chunk_apply, slice2_axis1_apply 0 vI g1 p d (lo d) (Nat.zero_add _).symm, slice2_axis1_apply 0 sI g1 p d (lo d) (Nat.zero_add _).symm,
      slice2_axis1_apply 0 vJ g2 q d (lo d) (Nat.zero_add _).symm, slice2_axis1_apply 0 sJ g2 q d (lo d) (Nat.zero_add _).symm]
  · rw [chunk_apply, slice2_axis1_apply 128 vI g3 p d (hi d) rfl, slice2_axis1_apply 128 sI g3 p d (hi d) rfl,
      slice2_axis1_apply 128 vJ g4 q d (hi d) rfl, slice2_axis1_apply 128 sJ g4 q d (hi d) rfl]

/-- The normalised block as the kernel computes it: each row divided by the larger of its Euclidean norm and the small
    constant. -/
abbrev normed (v : FVec Ideal S128x256 .f32) (h : S128x256.Reduces [1] S128) (hφ : FKind.Formats .f32)
    (hacc : (0x00000000#32 : BitVec 32) = FKind.add.neutral .f32 hφ) (hc : S128.ShapeCasts S128x1) (hb : S128x1.Broadcasts S128x256) :
    FVec Ideal S128x256 .f32 :=
  divf v (broadcastTo S128x256 (maximumf (sqrt (shapeCast S128x1 (multiReduction .add [1] S128 (mulf v v) 0x00000000#32 h hφ hacc) hc))
    (broadcast S128x1 (Scalar.ofBits .f32 0x2B8CBCCC#32))) hb)

theorem normed_apply (v : FVec Ideal S128x256 .f32) (h : S128x256.Reduces [1] S128) (hφ : FKind.Formats .f32)
    (hacc : (0x00000000#32 : BitVec 32) = FKind.add.neutral .f32 hφ) (hc : S128.ShapeCasts S128x1) (hb : S128x1.Broadcasts S128x256)
    (a : Fin 128) (d : Fin 256) :
    normed v h hφ hacc hc hb (ix2 a d)
      = Ideal.div (v (ix2 a d)) (max (Ideal.sqrt (∑ k : Fin 256, v (ix2 a k) * v (ix2 a k))) eNorm) := by
  show Ideal.div (v (ix2 a d)) (broadcastTo S128x256 _ hb (ix2 a d)) = _
  refine congrArg (Ideal.div (v (ix2 a d))) ?_
  refine (broadcastTo_apply _ hb (ix2 a d) (ix2 a (0 : Fin 1)) (fun ax => by match ax with | ⟨0, _⟩ => rfl | ⟨1, _⟩ => rfl)).trans ?_
  show max (Ideal.sqrt (shapeCast S128x1 _ hc (ix2 a (0 : Fin 1)))) eNorm = _
  refine congrArg (fun z => max (Ideal.sqrt z) eNorm) ?_
  refine (shapeCast_apply _ hc (ix2 a (0 : Fin 1)) (ix1 a) (by
    rw [Shape.rowMajor_val_two, Shape.rowMajor_val_one]
    show a.val = a.val * 1 + 0
    omega)).trans ?_
  refine (Ideal.multiReduction_add_single (mulf v v) 0x00000000#32 h hφ hacc (ix1 a)).trans ?_
  refine Finset.sum_congr rfl fun k _ => ?_
  have e : h.lift (ix1 a) k = ix2 a k := funext fun ax => Fin.ext (by match ax with | ⟨0, _⟩ => rfl | ⟨1, _⟩ => rfl)
  exact congrArg (fun i => v i * v i) e

end Cert.KernelIdeal.Val

end
-- ==== Proof.KBlock.lean ====
/-
  What the body leaves in the output block, entry by entry: the entry (P, q) is zero less the sum, over both halves of
  the feature axis, of the pairwise terms of row P of the first pair of blocks and row q of the second pair — row P
  lying in band P / 32 at its row P mod 32.
-/
import proofs.«143452_j12326556139626_2_alg».proof.Proof.KOps

set_option maxRecDepth 16384

noncomputable section

namespace Cert.KernelIdeal.Val

open Cert.KernelIdeal Cert.KernelIdeal.Gen Cert.KernelIdeal.Hand
open Idealize.ShloMosaic Idealize.ShloMosaic.ValueIdx Cert.Spec

def blockFn (x0 x1 x2 x3 : Vec Ideal S128x256 .f32) : S128x128.Idx → EReal :=
  fun y => pairVal x0 x1 x2 x3 ⟨(y 0).val, idx2_lt0 y⟩ ⟨(y 1).val, idx2_lt1 y⟩

theorem hz : (![0, 0] : Fin 2 → Nat) = fun _ => 0 := funext fun a => by fin_cases a <;> rfl

theorem ld_whole (x : Vec Ideal S128x256 .f32) : View.ld x rin = x := View.ld_unit_zero hz _ x

/-- A 32-row slab of a normalised block, at (p, e): the normalised row `o + p`. -/
theorem slabMu (x : Vec Ideal S128x256 .f32) (o : Nat) (g : S128x256.Slices ![o, 0] S32x256)
    (h : S128x256.Reduces [1] S128) (hφ : FKind.Formats .f32) (hacc : (0x00000000#32 : BitVec 32) = FKind.add.neutral .f32 hφ)
    (hc : S128.ShapeCasts S128x1) (hb : S128x1.Broadcasts S128x256) (p : Fin 32) (e : Fin 256) (P : Fin 128) (hP : P.val = o + p.val) :
    extractStridedSlice S32x256 ![o, 0] (normed (View.ld x rin) h hφ hacc hc hb) g (ix2 p e) = rowMu x P e := by
  rw [slice2_axis0_apply o _ g p e P hP, normed_apply, ld_whole]; rfl

theorem slabSg (y : Vec Ideal S128x256 .f32) (o : Nat) (g : S128x256.Slices ![o, 0] S32x256) (p : Fin 32) (e : Fin 256) (P : Fin 128)
    (hP : P.val = o + p.val) : extractStridedSlice S32x256 ![o, 0] (exp (View.ld y rin) : FVec Ideal S128x256 .f32) g (ix2 p e) = rowSg y P e := by
  rw [slice2_axis0_apply o _ g p e P hP, ld_whole]; rfl

theorem blockMu (x : Vec Ideal S128x256 .f32) (h : S128x256.Reduces [1] S128) (hφ : FKind.Formats .f32)
    (hacc : (0x00000000#32 : BitVec 32) = FKind.add.neutral .f32 hφ) (hc : S128.ShapeCasts S128x1) (hb : S128x1.Broadcasts S128x256)
    (q : Fin 128) (e : Fin 256) : normed (View.ld x rin) h hφ hacc hc hb (ix2 q e) = rowMu x q e := by
  rw [normed_apply, ld_whole]; rfl

theorem blockSg (y : Vec Ideal S128x256 .f32) (q : Fin 128) (e : Fin 256) : (exp (View.ld y rin) : FVec Ideal S128x256 .f32) (ix2 q e) = rowSg y q e := by
  rw [ld_whole]; rfl

/-- A band of the kernel's form, over slabs of the normalised first block and its variances: the entries of rows
    `o + p`. -/
theorem band_rows (x0 x1 x2 x3 : Vec Ideal S128x256 .f32) (o : Nat) (g : S128x256.Slices ![o, 0] S32x256)
    (g1 : S32x256.Slices ![0, 0] S32x128) (g2 : S128x256.Slices ![0, 0] S128x128)
    (g3 : S32x256.Slices ![0, 128] S32x128) (g4 : S128x256.Slices ![0, 128] S128x128)
    (h1 : S32x128.ShapeCasts S32x1x128) (h2 : S32x1x128.Broadcasts S32x128x128)
    (h3 : S128x128.ShapeCasts S1x128x128) (h4 : S1x128x128.Broadcasts S32x128x128)
    (hr : S32x128x128.Reduces [2] S32x128) (h : S128x256.Reduces [1] S128) (hφ : FKind.Formats .f32)
    (hacc : (0x00000000#32 : BitVec 32) = FKind.add.neutral .f32 hφ) (hc : S128.ShapeCasts S128x1) (hb : S128x1.Broadcasts S128x256)
    (p : Fin 32) (q : Fin 128) (P : Fin 128) (hP : P.val = o + p.val) :
    band (extractStridedSlice S32x256 ![o, 0] (normed (View.ld x0 rin) h hφ hacc hc hb) g)
        (extractStridedSlice S32x256 ![o, 0] (exp (View.ld x1 rin) : FVec Ideal S128x256 .f32) g)
        (normed (View.ld x2 rin) h hφ hacc hc hb) (exp (View.ld x3 rin) : FVec Ideal S128x256 .f32) g1 g2 g3 g4 h1 h2 h3 h4 hr hφ hacc (ix2 p q)
      = pairVal x0 x1 x2 x3 P q := by
  rw [band_apply]
  unfold pairVal
  refine congrArg (zeroW - ·) (congr (congrArg HAdd.hAdd (congrArg (zeroW + ·) (Finset.sum_congr rfl fun d _ => ?_))) (Finset.sum_congr rfl fun d _ => ?_))
  · rw [slabMu x0 o g h hφ hacc hc hb p (lo d) P hP, slabSg x1 o g p (lo d) P hP, blockMu x2 h hφ hacc hc hb q (lo d), blockSg x3 q (lo d)]
  · rw [slabMu x0 o g h hφ hacc hc hb p (hi d) P hP, slabSg x1 o g p (hi d) P hP, blockMu x2 h hφ hacc hc hb q (hi d), blockSg x3 q (hi d)]

/-- The four bands the body stores are of that form. -/
theorem bandVal0_apply (x0 x1 x2 x3 : Vec Ideal S128x256 .f32) (p : Fin 32) (q : Fin 128) (P : Fin 128) (hP : P.val = 0 + p.val) :
    bandVal0 x0 x1 x2 x3 (ix2 p q) = pairVal x0 x1 x2 x3 P q :=
  band_rows x0 x1 x2 x3 0 Gen.slices_S128x256_o0_0_S32x256 Gen.slices_S32x256_o0_0_S32x128 Gen.slices_S128x256_o0_0_S128x128
    Gen.slices_S32x256_o0_128_S32x128 Gen.slices_S128x256_o0_128_S128x128 Gen.shapeCasts_S32x128_S32x1x128 Gen.broadcasts_S32x1x128_S32x128x128
    Gen.shapeCasts_S128x128_S1x128x128 Gen.broadcasts_S1x128x128_S32x128x128 Gen.reduces_S32x128x128_S32x128 Gen.reduces_S128x256_S128 (.inl rfl) rfl
    Gen.shapeCasts_S128_S128x1 Gen.broadcasts_S128x1_S128x256 p q P hP
theorem bandVal1_apply (x0 x1 x2 x3 : Vec Ideal S128x256 .f32) (p : Fin 32) (q : Fin 128) (P : Fin 128) (hP : P.val = 32 + p.val) :
    bandVal1 x0 x1 x2 x3 (ix2 p q) = pairVal x0 x1 x2 x3 P q :=
  band_rows x0 x1 x2 x3 32 Gen.slices_S128x256_o32_0_S32x256 Gen.slices_S32x256_o0_0_S32x128 Gen.slices_S128x256_o0_0_S128x128
    Gen.slices_S32x256_o0_128_S32x128 Gen.slices_S128x256_o0_128_S128x128 Gen.shapeCasts_S32x128_S32x1x128 Gen.broadcasts_S32x1x128_S32x128x128
    Gen.shapeCasts_S128x128_S1x128x128 Gen.broadcasts_S1x128x128_S32x128x128 Gen.reduces_S32x128x128_S32x128 Gen.reduces_S128x256_S128 (.inl rfl) rfl
    Gen.shapeCasts_S128_S128x1 Gen.broadcasts_S128x1_S128x256 p q P hP
theorem bandVal2_apply (x0 x1 x2 x3 : Vec Ideal S128x256 .f32) (p : Fin 32) (q : Fin 128) (P : Fin 128) (hP : P.val = 64 + p.val) :
    bandVal2 x0 x1 x2 x3 (ix2 p q) = pairVal x0 x1 x2 x3 P q :=
  band_rows x0 x1 x2 x3 64 Gen.slices_S128x256_o64_0_S32x256 Gen.slices_S32x256_o0_0_S32x128 Gen.slices_S128x256_o0_0_S128x128
    Gen.slices_S32x256_o0_128_S32x128 Gen.slices_S128x256_o0_128_S128x128 Gen.shapeCasts_S32x128_S32x1x128 Gen.broadcasts_S32x1x128_S32x128x128
    Gen.shapeCasts_S128x128_S1x128x128 Gen.broadcasts_S1x128x128_S32x128x128 Gen.reduces_S32x128x128_S32x128 Gen.reduces_S128x256_S128 (.inl rfl) rfl
    Gen.shapeCasts_S128_S128x1 Gen.broadcasts_S128x1_S128x256 p q P hP
theorem bandVal3_apply (x0 x1 x2 x3 : Vec Ideal S128x256 .f32) (p : Fin 32) (q : Fin 128) (P : Fin 128) (hP : P.val = 96 + p.val) :
    bandVal3 x0 x1 x2 x3 (ix2 p q) = pairVal x0 x1 x2 x3 P q :=
  band_rows x0 x1 x2 x3 96 Gen.slices_S128x256_o96_0_S32x256 Gen.slices_S32x256_o0_0_S32x128 Gen.slices_S128x256_o0_0_S128x128
    Gen.slices_S32x256_o0_128_S32x128 Gen.slices_S128x256_o0_128_S128x128 Gen.shapeCasts_S32x128_S32x1x128 Gen.broadcasts_S32x1x128_S32x128x128
    Gen.shapeCasts_S128x128_S1x128x128 Gen.broadcasts_S1x128x128_S32x128x128 Gen.reduces_S32x128x128_S32x128 Gen.reduces_S128x256_S128 (.inl rfl) rfl
    Gen.shapeCasts_S128_S128x1 Gen.broadcasts_S128x1_S128x256 p q P hP

end Cert.KernelIdeal.Val

end
-- ==== Proof.KArray.lean ====
/-
  From blocks to the array. At grid point t the output window's block is tile (bi, bj) of the output array, the first
  pair of input windows hold rows 128·bi… of the two argument arrays and the second pair rows 128·bj…, where (bi, bj) is
  the t-th pair of the tables; so what point t writes back is tile (bi, bj) of ONE function of the argument arrays: the
  score of rows r and s. The 36 pairs are all the pairs bi ≤ bj < 8, so every entry (r, s) with r / 128 ≤ s / 128 lies in
  a block that is written back, and ends at the score of rows r and s.
-/
import proofs.«143452_j12326556139626_2_alg».proof.Proof.Run
import proofs.«143452_j12326556139626_2_alg».proof.Proof.KBlock

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Cert.Spec
open Idealize.SL.Sem
open Idealize.ShloMosaic.Pipeline (Dat Cfg Window)

variable (m : (ℓ : Loc nD τ sig) → Buf (Elt Ideal) ℓ)

/-- The two argument arrays as launched. -/
abbrev X0 (c : Dev nD) : S1024x256.Idx → EReal := m ((c : Thread nD τ).loc main_arg0)
abbrev X1 (c : Dev nD) : S1024x256.Idx → EReal := m ((c : Thread nD τ).loc main_arg1)

/-- What the output array holds on the tiles the grid covers: the score of rows r and s. -/
def G (c : Dev nD) : S1024x1024.Idx → EReal :=
  fun i => pairVal (X0 m c) (X1 m c) (X0 m c) (X1 m c) ⟨(i 0).val, idx2_lt0 i⟩ ⟨(i 1).val, idx2_lt1 i⟩

/-- The output block the body leaves is the block function of its four input blocks. -/
theorem outBlock_eq (x0 x1 x2 x3 : Vec Ideal S128x256 .f32) : outBlock x0 x1 x2 x3 = blockFn x0 x1 x2 x3 := by
  funext y
  unfold outBlock
  refine View.canon_apply_of_pieces (Val := Elt Ideal) (e := .f32) (blockFn x0 x1 x2 x3) _ ?_ y (bands_cover _ _ _ _ y)
  intro pc hpc x
  simp only [List.mem_cons, List.mem_nil_iff, _root_.or_false] at hpc
  rcases hpc with rfl | rfl | rfl | rfl
  · obtain ⟨p, q, rfl⟩ : ∃ (p : Fin 32) (q : Fin 128), x = ix2 p q := ⟨x 0, x 1, eq_ix2 x⟩
    show bandVal3 x0 x1 x2 x3 (ix2 p q) = blockFn x0 x1 x2 x3 (band3.emb (ix2 p q))
    rw [bandVal3_apply x0 x1 x2 x3 p q ⟨96 + p.val, by omega⟩ rfl]
    unfold blockFn
    refine congr (congrArg _ (Fin.ext ?_)) (Fin.ext ?_)
    · show 96 + p.val = 96 + 1 * p.val; omega
    · show q.val = 0 + 1 * q.val; omega
  · obtain ⟨p, q, rfl⟩ : ∃ (p : Fin 32) (q : Fin 128), x = ix2 p q := ⟨x 0, x 1, eq_ix2 x⟩
    show bandVal2 x0 x1 x2 x3 (ix2 p q) = blockFn x0 x1 x2 x3 (band2.emb (ix2 p q))
    rw [bandVal2_apply x0 x1 x2 x3 p q ⟨64 + p.val, by omega⟩ rfl]
    unfold blockFn
    refine congr (congrArg _ (Fin.ext ?_)) (Fin.ext ?_)
    · show 64 + p.val = 64 + 1 * p.val; omega
    · show q.val = 0 + 1 * q.val; omega
  · obtain ⟨p, q, rfl⟩ : ∃ (p : Fin 32) (q : Fin 128), x = ix2 p q := ⟨x 0, x 1, eq_ix2 x⟩
    show bandVal1 x0 x1 x2 x3 (ix2 p q) = blockFn x0 x1 x2 x3 (band1.emb (ix2 p q))
    rw [bandVal1_apply x0 x1 x2 x3 p q ⟨32 + p.val, by omega⟩ rfl]
    unfold blockFn
    refine congr (congrArg _ (Fin.ext ?_)) (Fin.ext ?_)
    · show 32 + p.val = 32 + 1 * p.val; omega
    · show q.val = 0 + 1 * q.val; omega
  · obtain ⟨p, q, rfl⟩ : ∃ (p : Fin 32) (q : Fin 128), x = ix2 p q := ⟨x 0, x 1, eq_ix2 x⟩
    show bandVal0 x0 x1 x2 x3 (ix2 p q) = blockFn x0 x1 x2 x3 (band0.emb (ix2 p q))
    rw [bandVal0_apply x0 x1 x2 x3 p q ⟨0 + p.val, by omega⟩ rfl]
    unfold blockFn
    refine congr (congrArg _ (Fin.ext ?_)) (Fin.ext ?_)
    · show 0 + p.val = 0 + 1 * p.val; omega
    · show q.val = 0 + 1 * q.val; omega

/-- The index maps at the tables' contents, decided over the grid: the first pair of windows moves with the output's row
    tile, the second with its column tile, and the tiles are an upper-triangular pair below 8. -/
theorem idx_facts : ∀ t : Fin (cfgM (F := Ideal)).N,
    ((cfgM (F := Ideal)).win 0).index t (0 : Fin 2) = ((cfgM (F := Ideal)).win 4).index t (0 : Fin 2)
    ∧ ((cfgM (F := Ideal)).win 0).index t (1 : Fin 2) = 0
    ∧ ((cfgM (F := Ideal)).win 1).index t (0 : Fin 2) = ((cfgM (F := Ideal)).win 4).index t (0 : Fin 2)
    ∧ ((cfgM (F := Ideal)).win 1).index t (1 : Fin 2) = 0
    ∧ ((cfgM (F := Ideal)).win 2).index t (0 : Fin 2) = ((cfgM (F := Ideal)).win 4).index t (1 : Fin 2)
    ∧ ((cfgM (F := Ideal)).win 2).index t (1 : Fin 2) = 0
    ∧ ((cfgM (F := Ideal)).win 3).index t (0 : Fin 2) = ((cfgM (F := Ideal)).win 4).index t (1 : Fin 2)
    ∧ ((cfgM (F := Ideal)).win 3).index t (1 : Fin 2) = 0
    ∧ ((cfgM (F := Ideal)).win 4).index t (0 : Fin 2) ≤ ((cfgM (F := Ideal)).win 4).index t (1 : Fin 2)
    ∧ ((cfgM (F := Ideal)).win 4).index t (1 : Fin 2) ≤ 7 :=
  (by decide +kernel : ∀ t : Fin grid0.N, _)

/-- Every upper-triangular tile is some point's. -/
theorem idx_onto : ∀ (q0 q1 : Fin 8), q0.val ≤ q1.val → ∃ t : Fin (cfgM (F := Ideal)).N, ((cfgM (F := Ideal)).win 4).index t = ![q0.val, q1.val] :=
  (by decide +kernel : ∀ (q0 q1 : Fin 8), q0.val ≤ q1.val → ∃ t : Fin grid0.N, ((cfgM (F := Ideal)).win 4).index t = ![q0.val, q1.val])

/-- The output block is written back at every point. -/
theorem flush_all : ∀ t : Fin (cfgM (F := Ideal)).N, ((cfgM (F := Ideal)).win 4).flush t = true :=
  (by decide +kernel : ∀ t : Fin grid0.N, _)

end Cert.KernelIdeal.Val

end
-- ==== Proof.KFinal.lean ====
/-
  What each grid point writes back is its tile of the score function, and every entry (r, s) of the output array with
  r / 128 ≤ s / 128 lies in a tile that is written back: after the region it holds the score of rows r and s.
-/
import proofs.«143452_j12326556139626_2_alg».proof.Proof.KArray

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Cert.Spec
open Idealize.SL.Sem
open Idealize.ShloMosaic.Pipeline (Dat Cfg Window)

variable (m : (ℓ : Loc nD τ sig) → Buf (Elt Ideal) ℓ)

/-- An input window's block at point `t`, at (a, d): the argument array at row (block index)·128 + a. -/
theorem iblk0_apply (c : Dev nD) (t : Fin (cfgM (F := Ideal)).N) (a : Fin 128) (d : Fin 256) (R : Fin 1024)
    (hR : R.val = ((cfgM (F := Ideal)).win 4).index t (0 : Fin 2) * 128 + a.val) :
    iblk m c 0 t (ix2 a d) = X0 m c (ix2 R d) := by
  obtain ⟨e00, e01, -⟩ := idx_facts t
  show V m c main_arg0 ((((cfgM (F := Ideal)).win 0).blk t).view.emb (ix2 a d)) = _
  rw [V_arg0]
  refine congrArg (m ((c : Thread nD τ).loc main_arg0)) (funext fun ax => Fin.ext ?_)
  match ax with
  | ⟨0, _⟩ => show ((cfgM (F := Ideal)).win 0).index t (0 : Fin 2) * 128 + 1 * a.val = R.val; rw [e00, hR]; omega
  | ⟨1, _⟩ => show ((cfgM (F := Ideal)).win 0).index t (1 : Fin 2) * 256 + 1 * d.val = d.val; rw [e01]; omega

theorem iblk1_apply (c : Dev nD) (t : Fin (cfgM (F := Ideal)).N) (a : Fin 128) (d : Fin 256) (R : Fin 1024)
    (hR : R.val = ((cfgM (F := Ideal)).win 4).index t (0 : Fin 2) * 128 + a.val) :
    iblk m c 1 t (ix2 a d) = X1 m c (ix2 R d) := by
  obtain ⟨-, -, e10, e11, -⟩ := idx_facts t
  show V m c main_arg1 ((((cfgM (F := Ideal)).win 1).blk t).view.emb (ix2 a d)) = _
  rw [V_arg1]
  refine congrArg (m ((c : Thread nD τ).loc main_arg1)) (funext fun ax => Fin.ext ?_)
  match ax with
  | ⟨0, _⟩ => show ((cfgM (F := Ideal)).win 1).index t (0 : Fin 2) * 128 + 1 * a.val = R.val; rw [e10, hR]; omega
  | ⟨1, _⟩ => show ((cfgM (F := Ideal)).win 1).index t (1 : Fin 2) * 256 + 1 * d.val = d.val; rw [e11]; omega

theorem iblk2_apply (c : Dev nD) (t : Fin (cfgM (F := Ideal)).N) (a : Fin 128) (d : Fin 256) (R : Fin 1024)
    (hR : R.val = ((cfgM (F := Ideal)).win 4).index t (1 : Fin 2) * 128 + a.val) :
    iblk m c 2 t (ix2 a d) = X0 m c (ix2 R d) := by
  obtain ⟨-, -, -, -, e20, e21, -⟩ := idx_facts t
  show V m c main_arg0 ((((cfgM (F := Ideal)).win 2).blk t).view.emb (ix2 a d)) = _
  rw [V_arg0]
  refine congrArg (m ((c : Thread nD τ).loc main_arg0)) (funext fun ax => Fin.ext ?_)
  match ax with
  | ⟨0, _⟩ => show ((cfgM (F := Ideal)).win 2).index t (0 : Fin 2) * 128 + 1 * a.val = R.val; rw [e20, hR]; omega
  | ⟨1, _⟩ => show ((cfgM (F := Ideal)).win 2).index t (1 : Fin 2) * 256 + 1 * d.val = d.val; rw [e21]; omega

theorem iblk3_apply (c : Dev nD) (t : Fin (cfgM (F := Ideal)).N) (a : Fin 128) (d : Fin 256) (R : Fin 1024)
    (hR : R.val = ((cfgM (F := Ideal)).win 4).index t (1 : Fin 2) * 128 + a.val) :
    iblk m c 3 t (ix2 a d) = X1 m c (ix2 R d) := by
  obtain ⟨-, -, -, -, -, -, e30, e31, -⟩ := idx_facts t
  show V m c main_arg1 ((((cfgM (F := Ideal)).win 3).blk t).view.emb (ix2 a d)) = _
  rw [V_arg1]
  refine congrArg (m ((c : Thread nD τ).loc main_arg1)) (funext fun ax => Fin.ext ?_)
  match ax with
  | ⟨0, _⟩ => show ((cfgM (F := Ideal)).win 3).index t (0 : Fin 2) * 128 + 1 * a.val = R.val; rw [e30, hR]; omega
  | ⟨1, _⟩ => show ((cfgM (F := Ideal)).win 3).index t (1 : Fin 2) * 256 + 1 * d.val = d.val; rw [e31]; omega

/-- WHAT POINT `t` WRITES BACK is its tile of the score function. -/
theorem flushed_eq (c : Dev nD) (t : Fin (cfgM (F := Ideal)).N) :
    (dats m 0 c).flushed 4 t = (((cfgM (F := Ideal)).win 4).blk t).view.read (Elt Ideal) (G m c) := by
  show ((cfgM (F := Ideal)).win 4).cut (grid0.coords t) ((dats m 0 c).after 4 t) = _
  rw [after_4, outBlock_eq]
  obtain ⟨-, -, -, -, -, -, -, -, hle, h7⟩ := idx_facts t
  funext j
  obtain ⟨p, q, rfl⟩ : ∃ (p q : Fin 128), j = ix2 p q := ⟨j 0, j 1, eq_ix2 j⟩
  have hp := p.isLt
  have hq := q.isLt
  show pairVal (iblk m c 0 t) (iblk m c 1 t) (iblk m c 2 t) (iblk m c 3 t) p q
    = pairVal (X0 m c) (X1 m c) (X0 m c) (X1 m c)
        ⟨((cfgM (F := Ideal)).win 4).index t (0 : Fin 2) * 128 + 1 * p.val, by omega⟩
        ⟨((cfgM (F := Ideal)).win 4).index t (1 : Fin 2) * 128 + 1 * q.val, by omega⟩
  exact pairVal_congr _ _ _ _ _ _ _ _ p q _ _
    (fun d => iblk0_apply m c t p d _ (by show _ * 128 + 1 * p.val = _; omega))
    (fun d => iblk1_apply m c t p d _ (by show _ * 128 + 1 * p.val = _; omega))
    (fun d => iblk2_apply m c t q d _ (by show _ * 128 + 1 * q.val = _; omega))
    (fun d => iblk3_apply m c t q d _ (by show _ * 128 + 1 * q.val = _; omega))

/-- An index of the output array is in point `t`'s block iff each coordinate is in the block's range on its axis. -/
theorem mem_blk (t : Fin (cfgM (F := Ideal)).N) (i : S1024x1024.Idx) :
    i ∈ (((cfgM (F := Ideal)).win 4).blk t).view.set ↔ ∀ a : Fin 2, ((cfgM (F := Ideal)).win 4).index t a * S128x128.size a ≤ (i a).val
      ∧ (i a).val < ((cfgM (F := Ideal)).win 4).index t a * S128x128.size a + S128x128.size a := by
  show i ∈ ((View.whole main_v0).slice (((cfgM (F := Ideal)).win 4).rect t)).set ↔ _
  rw [View.set_slice_whole, Rect.mem_set_unit]
  exact Iff.rfl

/-- THE OUTPUT ARRAY after the region, on the upper-triangular tiles: the score of rows r and s. -/
theorem arr_upper (c : Dev nD) (r s : Fin 1024) (h : r.val / 128 ≤ s.val / 128) :
    (dats m 0 c).arrAt 4 (cfgM (F := Ideal)).N (ix2 r s) = pairVal (X0 m c) (X1 m c) (X0 m c) (X1 m c) r s := by
  have hr := r.isLt
  have hs := s.isLt
  obtain ⟨t, ht⟩ := idx_onto ⟨r.val / 128, by omega⟩ ⟨s.val / 128, by omega⟩ h
  have q0 : ((cfgM (F := Ideal)).win 4).index t (0 : Fin 2) = r.val / 128 := congrFun ht 0
  have q1 : ((cfgM (F := Ideal)).win 4).index t (1 : Fin 2) = s.val / 128 := congrFun ht 1
  refine ((dats m 0 c).arrAt_apply_of_mem 4 (G m c) (fun t _ => flushed_eq m c t) (cfgM (F := Ideal)).N t (ix2 r s) t.isLt (flush_all t) ?_).trans rfl
  rw [mem_blk]
  intro a
  match a with
  | ⟨0, _⟩ => show ((cfgM (F := Ideal)).win 4).index t (0 : Fin 2) * 128 ≤ r.val ∧ r.val < ((cfgM (F := Ideal)).win 4).index t (0 : Fin 2) * 128 + 128; omega
  | ⟨1, _⟩ => show ((cfgM (F := Ideal)).win 4).index t (1 : Fin 2) * 128 ≤ s.val ∧ s.val < ((cfgM (F := Ideal)).win 4).index t (1 : Fin 2) * 128 + 128; omega

end Cert.KernelIdeal.Val

end
-- ==== Proof.KTailVal.lean ====
/-
  The lines after the region, as one function of the output array, read at an index. The first mask keeps the entries
  on and above the diagonal, the second those strictly above it; the second masked array is transposed and the two are
  added. So the result at (i, j) is the output array at (i, j) plus zero when i ≤ j, and zero plus the output array at
  (j, i) when i > j. The masks compare 32-bit words: row index plus −1 (or plus 0) against the column index, signed; for
  indices below 1024 nothing wraps except 0 + (−1), which is −1 and below every column index.
-/
import proofs.«143452_j12326556139626_2_alg».proof.Proof.Run
import proofs.«143452_j12326556139626_2_alg».proof.Proof.Spec
import Idealize.ShloMosaic.Lib.ValueLayout

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Cert.Spec
open Idealize.SL.Sem

theorem ofBool_eq_one (b : Bool) : BitVec.ofBool b = 1#1 ↔ b = true := by cases b <;> decide

/-- The signed comparison of two words, as a comparison of the integers they denote. -/
theorem sge_iff (x y : BitVec 32) : IntOp.cmpi .sge x y = 1#1 ↔ y.toInt ≤ x.toInt := by
  unfold IntOp.cmpi
  rw [ofBool_eq_one]
  simp [BitVec.sle]

theorem toInt_small (a : Nat) (h : a < 2 ^ 31) : (BitVec.ofNat 32 a).toInt = (a : Int) := by
  rw [BitVec.toInt_eq_toNat_of_lt (by rw [BitVec.toNat_ofNat]; omega), BitVec.toNat_ofNat]
  congr 1; omega

theorem toInt_pred (i : Nat) (h : i < 2 ^ 31) : (BitVec.ofNat 32 i + 4294967295#32).toInt = (i : Int) - 1 := by
  rcases Nat.eq_zero_or_pos i with rfl | hp
  · decide
  · have e : BitVec.ofNat 32 i + 4294967295#32 = BitVec.ofNat 32 (i - 1) := by
      apply BitVec.eq_of_toNat_eq
      rw [BitVec.toNat_add, BitVec.toNat_ofNat, BitVec.toNat_ofNat]
      show (i % 2 ^ 32 + 4294967295) % 2 ^ 32 = (i - 1) % 2 ^ 32
      omega
    rw [e, toInt_small _ (by omega)]
    omega

theorem toInt_add_zero (i : Nat) (h : i < 2 ^ 31) : (BitVec.ofNat 32 i + 0#32).toInt = (i : Int) := by
  rw [BitVec.add_zero, toInt_small i h]

/-- Below the diagonal, strictly: row − 1 ≥ column. -/
theorem mask_lower (i j : Fin 1024) :
    IntOp.cmpi .sge (IntOp.addi (BitVec.ofNat 32 i.val) 4294967295#32) (BitVec.ofNat 32 j.val) = 1#1 ↔ j.val + 1 ≤ i.val := by
  show IntOp.cmpi .sge (BitVec.ofNat 32 i.val + 4294967295#32) (BitVec.ofNat 32 j.val) = 1#1 ↔ _
  have hi := i.isLt
  have hj := j.isLt
  rw [sge_iff, toInt_small _ (by omega), toInt_pred _ (by omega)]; omega

/-- On or below the diagonal: row ≥ column. -/
theorem mask_diag (i j : Fin 1024) :
    IntOp.cmpi .sge (IntOp.addi (BitVec.ofNat 32 i.val) 0#32) (BitVec.ofNat 32 j.val) = 1#1 ↔ j.val ≤ i.val := by
  show IntOp.cmpi .sge (BitVec.ofNat 32 i.val + 0#32) (BitVec.ofNat 32 j.val) = 1#1 ↔ _
  have hi := i.isLt
  have hj := j.isLt
  rw [sge_iff, toInt_small _ (by omega), toInt_add_zero _ (by omega)]; omega

/-- The array masked to its part on and above the diagonal, and to its part strictly above it. -/
def upperIncl (R : S1024x1024.Idx → EReal) : S1024x1024.Idx → EReal :=
  select (cmpi .sge (addi (iotaInDim S1024x1024 32 0) (broadcastInDim S1024x1024 ![] bcast_S_S1024x1024 (constantI S_ 32 4294967295#32)))
      (iotaInDim S1024x1024 32 1))
    (broadcastInDim S1024x1024 ![] bcast_S_S1024x1024 (constant (F := Ideal) S_ .f32 0x00000000#32)) R
def upperStrict (R : S1024x1024.Idx → EReal) : S1024x1024.Idx → EReal :=
  select (cmpi .sge (addi (iotaInDim S1024x1024 32 0) (broadcastInDim S1024x1024 ![] bcast_S_S1024x1024 (constantI S_ 32 0#32)))
      (iotaInDim S1024x1024 32 1))
    (broadcastInDim S1024x1024 ![] bcast_S_S1024x1024 (constant (F := Ideal) S_ .f32 0x00000000#32)) R

/-- The lines after the region as one function of the output array. -/
def tailFn (R : S1024x1024.Idx → EReal) : S1024x1024.Idx → EReal :=
  addf (F := Ideal) (φ := .f32) (upperIncl R) (transpose S1024x1024 [1, 0] (upperStrict R) transposes_S1024x1024_S1024x1024_1_0)

/-- The vector operations of the masks, at an index. -/
theorem cmpi_at {s : Shape} {w : Nat} (p : CmpIPredicate) (x y : IVec s w) (i : s.Idx) : cmpi p x y i = IntOp.cmpi p (x i) (y i) := rfl
theorem addi_at {s : Shape} {w : Nat} (x y : IVec s w) (i : s.Idx) : addi x y i = IntOp.addi (x i) (y i) := rfl
theorem iota_at {s : Shape} (w : Nat) (d : Fin s.rank) (i : s.Idx) : iotaInDim s w d i = BitVec.ofNat w (i d).val := rfl
theorem wordSplat_at (w : BitVec 32) (h : S_.BroadcastsInDim S1024x1024 (![] : Fin 0 → Fin S1024x1024.rank)) (y : S1024x1024.Idx) :
    broadcastInDim S1024x1024 ![] h (constantI S_ 32 w) y = w :=
  broadcastInDim_apply _ h _ y ValueIdx.ix0 (fun a => a.elim0)
theorem zeroSplat_at (h : S_.BroadcastsInDim S1024x1024 (![] : Fin 0 → Fin S1024x1024.rank)) (y : S1024x1024.Idx) :
    broadcastInDim S1024x1024 ![] h (constant (F := Ideal) S_ .f32 0x00000000#32) y = zeroW :=
  broadcastInDim_apply _ h _ y ValueIdx.ix0 (fun a => a.elim0)

theorem upperIncl_apply (R : S1024x1024.Idx → EReal) (i j : Fin 1024) :
    upperIncl R (ix2 i j) = if j.val + 1 ≤ i.val then zeroW else R (ix2 i j) := by
  unfold upperIncl
  rw [select_apply, cmpi_at, addi_at, iota_at, iota_at, wordSplat_at, zeroSplat_at]
  unfold Scalar.select
  exact if_congr (mask_lower i j) rfl rfl

theorem upperStrict_apply (R : S1024x1024.Idx → EReal) (i j : Fin 1024) :
    upperStrict R (ix2 i j) = if j.val ≤ i.val then zeroW else R (ix2 i j) := by
  unfold upperStrict
  rw [select_apply, cmpi_at, addi_at, iota_at, iota_at, wordSplat_at, zeroSplat_at]
  unfold Scalar.select
  exact if_congr (mask_diag i j) rfl rfl

theorem tailFn_apply (R : S1024x1024.Idx → EReal) (i j : Fin 1024) :
    tailFn R (ix2 i j) = (if j.val + 1 ≤ i.val then zeroW else R (ix2 i j)) + (if i.val ≤ j.val then zeroW else R (ix2 j i)) := by
  unfold tailFn
  rw [addf_apply, upperIncl_apply, transpose_ix2_apply (upperStrict R) transposes_S1024x1024_S1024x1024_1_0 i j, upperStrict_apply]

end Cert.KernelIdeal.Val

end
-- ==== Proof.KTailEq.lean ====
/-
  The run's result is the lines' function of the output array as the region left it.
-/
import proofs.«143452_j12326556139626_2_alg».proof.Proof.KTailVal

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Cert.Spec
open Idealize.SL.Sem Idealize.ShloMosaic.Tactic

/-- A value stored in a buffer of its own type and read back is the value. -/
theorem roundI32 (r : Ref sig .tc) (h1 : r.ty = ⟨S1024x1024, .i32⟩) (h2) (h3) (X : (⟨S1024x1024, .i32⟩ : BufTy).Contents (Elt Ideal)) :
    (StableHlo.TRef.of (T := ⟨S1024x1024, .i32⟩) r h1 h2 h3).ofBuf ((StableHlo.TRef.of (T := ⟨S1024x1024, .i32⟩) r h1 h2 h3).toBuf X) = X := by
  simp only [StableHlo.TRef.ofBuf, StableHlo.TRef.toBuf, cast_cast, cast_eq]

/-- The first masking call leaves the array's part on and above the diagonal in its result. -/
theorem mask_incl_eq (W : Valuation τ sig (Elt Ideal)) :
    StableHlo.after (hostOps1 (F := Ideal)) W (Proc.devRef .tc main_v1) = upperIncl (W (Proc.devRef .tc main_v0)) := by
  after_results
  unfold upperIncl
  have s1 : ∀ X : (⟨S1024x1024, .f32⟩ : BufTy).Contents (Elt Ideal), (StableHlo.TRef.of (T := ⟨S1024x1024, .f32⟩) main_v1).toBuf X = X := fun _ => rfl
  have s4 : ∀ X : (⟨S1024x1024, .i1⟩ : BufTy).Contents (Elt Ideal), (StableHlo.TRef.of (T := ⟨S1024x1024, .i1⟩) main_call0_v4).ofBuf ((StableHlo.TRef.of (T := ⟨S1024x1024, .i1⟩) main_call0_v4).toBuf X) = X := fun _ => rfl
  refine (s1 _).trans ?_
  refine congr (congr (congrArg select ?_) rfl) rfl
  refine (s4 _).trans ?_
  refine congr (congrArg (cmpi .sge) ?_) (roundI32 main_call0_v3 _ _ _ _)
  refine (roundI32 main_call0_v2 _ _ _ _).trans ?_
  refine congr (congrArg addi (roundI32 main_call0_v0 _ _ _ _)) ?_
  refine (roundI32 main_call0_v1 _ _ _ _).trans ?_
  rfl

/-- The second masking call leaves the array's part strictly above the diagonal in its result. -/
theorem mask_strict_eq (W : Valuation τ sig (Elt Ideal)) :
    StableHlo.after (hostOps1_1 (F := Ideal)) W (Proc.devRef .tc main_v2) = upperStrict (W (Proc.devRef .tc main_v0)) := by
  after_results
  unfold upperStrict
  have s1 : ∀ X : (⟨S1024x1024, .f32⟩ : BufTy).Contents (Elt Ideal), (StableHlo.TRef.of (T := ⟨S1024x1024, .f32⟩) main_v2).toBuf X = X := fun _ => rfl
  have s4 : ∀ X : (⟨S1024x1024, .i1⟩ : BufTy).Contents (Elt Ideal), (StableHlo.TRef.of (T := ⟨S1024x1024, .i1⟩) main_call1_v4).ofBuf ((StableHlo.TRef.of (T := ⟨S1024x1024, .i1⟩) main_call1_v4).toBuf X) = X := fun _ => rfl
  refine (s1 _).trans ?_
  refine congr (congr (congrArg select ?_) rfl) rfl
  refine (s4 _).trans ?_
  refine congr (congrArg (cmpi .sge) ?_) (roundI32 main_call1_v3 _ _ _ _)
  refine (roundI32 main_call1_v2 _ _ _ _).trans ?_
  refine congr (congrArg addi (roundI32 main_call1_v0 _ _ _ _)) ?_
  refine (roundI32 main_call1_v1 _ _ _ _).trans ?_
  rfl

/-- The first call leaves the output array alone; the second leaves it and the first call's result alone. -/
theorem call0_keeps_v0 (W : Valuation τ sig (Elt Ideal)) :
    StableHlo.after (hostOps1 (F := Ideal)) W (Proc.devRef .tc main_v0) = W (Proc.devRef .tc main_v0) := by after_results
theorem call1_keeps_v1 (W : Valuation τ sig (Elt Ideal)) :
    StableHlo.after (hostOps1_1 (F := Ideal)) W (Proc.devRef .tc main_v1) = W (Proc.devRef .tc main_v1) := by after_results

/-- The transpose and the sum. -/
theorem sum_eq (W : Valuation τ sig (Elt Ideal)) :
    StableHlo.after (hostOps1_2 (F := Ideal)) W (Proc.devRef .tc main_v4)
      = addf (F := Ideal) (φ := .f32) (W (Proc.devRef .tc main_v1))
          (transpose S1024x1024 [1, 0] (W (Proc.devRef .tc main_v2)) transposes_S1024x1024_S1024x1024_1_0) := by
  after_results

/-- The lines after the region compute that function of the output array, whatever the other buffers hold. -/
theorem tail_fn_eq (W : Valuation τ sig (Elt Ideal)) :
    StableHlo.after (tailOps (F := Ideal)).flatten W (Proc.devRef .tc main_v4) = tailFn (W (Proc.devRef .tc main_v0)) := by
  have e : (tailOps (F := Ideal)).flatten = hostOps1 ++ (hostOps1_1 ++ hostOps1_2) := by
    simp only [tailOps, List.flatten_cons, List.flatten_nil, List.append_nil]
  rw [e, StableHlo.after_append, StableHlo.after_append, sum_eq, call1_keeps_v1, mask_incl_eq, mask_strict_eq, call0_keeps_v0]
  rfl

variable (m : (ℓ : Loc nD τ sig) → Buf (Elt Ideal) ℓ)

/-- The run's result is that function of the output array as the region left it. -/
theorem tail_eq (c : Dev nD) :
    StableHlo.after (tailOps (F := Ideal)).flatten (exitVal m c) (Proc.devRef .tc main_v4)
      = tailFn ((dats m 0 c).arrAt 4 (cfgM (F := Ideal)).N) :=
  (tail_fn_eq (exitVal m c)).trans (congrArg tailFn (exitVal_v0 m c))

end Cert.KernelIdeal.Val

end
-- ==== Proof.RefSide.lean ====
/-
  The reference's result, read at an index: its entry (i, j) is minus the sum from zero, over the 256 features, of the
  pairwise terms of the normalised rows i and j and their variances — each broadcast along a new axis reads row i, or
  row j, at the feature, and the row norm is the square root of the host's sum of squares from zero.
-/
import proofs.«143452_j12326556139626_2_alg».proof.Proof.Gen.ReferenceIdeal.Read
import proofs.«143452_j12326556139626_2_alg».proof.Proof.Spec
import Idealize.ShloMosaic.Lib.ValueIdx
import Idealize.ShloMosaic.PureOps.Ideal.Laws

set_option maxRecDepth 16384

noncomputable section

namespace Cert.ReferenceIdeal.Hand

open Cert.ReferenceIdeal Cert.ReferenceIdeal.Gen Cert.ReferenceIdeal.Read
open Idealize.ShloMosaic Idealize.ShloMosaic.ValueIdx Cert.Spec

theorem rows_i (i j : Fin 1024) (k : Fin 256) : idx_main_v11 (idx_main_v13 (idx_main_v22 (ix2 i j) k)) = ix2 i k :=
  funext fun a => Fin.ext (by match a with | ⟨0, _⟩ => rfl | ⟨1, _⟩ => rfl)
theorem rows_j (i j : Fin 1024) (k : Fin 256) : idx_main_v12 (idx_main_v14 (idx_main_v22 (ix2 i j) k)) = ix2 j k :=
  funext fun a => Fin.ext (by match a with | ⟨0, _⟩ => rfl | ⟨1, _⟩ => rfl)
theorem vars_i (i j : Fin 1024) (k : Fin 256) : idx_main_v6 (idx_main_v8 (idx_main_v22 (ix2 i j) k)) = ix2 i k :=
  funext fun a => Fin.ext (by match a with | ⟨0, _⟩ => rfl | ⟨1, _⟩ => rfl)
theorem vars_j (i j : Fin 1024) (k : Fin 256) : idx_main_v7 (idx_main_v9 (idx_main_v22 (ix2 i j) k)) = ix2 j k :=
  funext fun a => Fin.ext (by match a with | ⟨0, _⟩ => rfl | ⟨1, _⟩ => rfl)
theorem norm_row (r : Fin 1024) (k k' : Fin 256) : idx_main_call0_v1 (idx_main_call0_v2 (idx_main_v3 (ix2 r k))) k' = ix2 r k' :=
  funext fun a => Fin.ext (by match a with | ⟨0, _⟩ => rfl | ⟨1, _⟩ => rfl)

/-- The reference's result at (i, j). -/
theorem ref_apply (x0 x1 : (⟨S1024x256, .f32⟩ : BufTy).Contents (Elt Ideal)) (i j : Fin 1024) :
    val_main_v23 (F := Ideal) x0 x1 (ix2 i j) = refVal x0 x1 i j := by
  rw [val_main_v23_apply, val_main_v22_apply]
  simp only [val_main_v21_apply, val_main_v19_apply, val_main_v20_apply, val_main_v16_apply, val_main_v15_apply, val_main_v13_apply,
    val_main_v14_apply, val_main_v11_apply, val_main_v12_apply, val_main_v18_apply, val_main_v17_apply, val_main_v10_apply,
    val_main_v8_apply, val_main_v9_apply, val_main_v6_apply, val_main_v7_apply, val_main_v5_apply, val_main_v4_apply,
    val_main_v3_apply, val_main_v2_apply, val_main_v0_apply, val_main_v1_apply, val_main_call0_v2_apply, val_main_call0_v1_apply,
    val_main_call0_v0_apply, val_main_cst_apply, val_main_cst_0_apply, val_main_cst_1_apply, val_main_call0_cst_apply,
    rows_i, rows_j, vars_i, vars_j, norm_row]
  rfl

end Cert.ReferenceIdeal.Hand

end
-- ==== Proof.Final.lean ====
/-
  The two results are one function. At (i, j) with i ≤ j the kernel's result is the output array's entry (i, j), the
  score of rows i and j, plus zero; with i > j it is zero plus the entry (j, i), the score of rows j and i, which is the
  score of rows i and j by symmetry. The score as the kernel sums it (two halves from zero, subtracted from zero) is the
  score as the reference sums it (all 256 features from zero, negated).
-/
import proofs.«143452_j12326556139626_2_alg».proof.Proof.KFinal
import proofs.«143452_j12326556139626_2_alg».proof.Proof.KTailVal
import proofs.«143452_j12326556139626_2_alg».proof.Proof.KTailEq
import proofs.«143452_j12326556139626_2_alg».proof.Proof.RefSide

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Cert.Spec
open Idealize.SL.Sem

variable (m : (ℓ : Loc nD τ sig) → Buf (Elt Ideal) ℓ)

theorem result_eq (c : Dev nD) :
    tailFn ((dats m 0 c).arrAt 4 (cfgM (F := Ideal)).N)
      = Cert.ReferenceIdeal.Read.val_main_v23 (F := Ideal) (X0 m c) (X1 m c) := by
  funext y
  obtain ⟨i, j, rfl⟩ : ∃ (i j : Fin 1024), y = ix2 i j := ⟨y 0, y 1, eq_ix2 y⟩
  rw [tailFn_apply, Cert.ReferenceIdeal.Hand.ref_apply]
  by_cases h : i.val ≤ j.val
  · rw [if_neg (by omega), if_pos h, arr_upper m c i j (Nat.div_le_div_right h), pairVal_eq_refVal, zeroW_eq, add_zero]
  · rw [if_pos (by omega), if_neg h, arr_upper m c j i (Nat.div_le_div_right (by omega)), pairVal_eq_refVal, zeroW_eq, zero_add, refVal_comm]

end Cert.KernelIdeal.Val

end
-- ==== Proof.lean ====
/-
  The certificate. Both kernel programs run to the end with their argument arrays unchanged: the region is launched
  with the two shared argument arrays dealt to their windows in halves, every grid point's body runs on whole staging
  buffers, and the host lines after the region run from the region's exit contents. The reference is a straight line of
  host operations. At exact arithmetic the kernel's result — the upper-triangular tiles of pairwise scores, mirrored by
  the masks, the transpose and the sum — is the reference's full matrix of scores, because the score is symmetric and a
  sum over 256 features is the sum of its two halves.
-/
import proofs.«143452_j12326556139626_2_alg».proof.Defs
import proofs.«143452_j12326556139626_2_alg».proof.Proof.KRun
import proofs.«143452_j12326556139626_2_alg».proof.Proof.Final
import proofs.«143452_j12326556139626_2_alg».proof.Proof.Gen.Kernel
import proofs.«143452_j12326556139626_2_alg».proof.Proof.Gen.KernelIdeal
import proofs.«143452_j12326556139626_2_alg».proof.Proof.Gen.ReferenceIdeal
import proofs.«143452_j12326556139626_2_alg».proof.Proof.Gen.ReferenceIdeal.Run
import proofs.«143452_j12326556139626_2_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := fun m ρ _ =>
  (θ_run Cert.Kernel.defs _ _).mono (fun _ h c => ⟨(h c).2.1, (h c).2.2⟩) (Cert.Kernel.Hand.run_main (F := Bits) m ρ)

theorem frame_ki : Cert.frame_KernelIdeal := fun m ρ _ =>
  (θ_run Cert.KernelIdeal.defs _ _).mono (fun _ h c => ⟨(h c).2.1, (h c).2.2⟩) (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' _ hagree
  refine ⟨fun c => Cert.ReferenceIdeal.Read.val_main_v23 (F := Ideal) (Cert.KernelIdeal.Val.X0 m c) (Cert.KernelIdeal.Val.X1 m c), ?_, ?_⟩
  · exact (θ_run Cert.KernelIdeal.defs _ _).mono
      (fun _ h c => ⟨(h c).1.trans ((Cert.KernelIdeal.Val.tail_eq m c).trans (Cert.KernelIdeal.Val.result_eq m c)), (h c).2.1, (h c).2.2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact Cert.ReferenceIdeal.Read.val_main_v23_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
